-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_v132) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S131072 : Shape := ⟨1, ![131072]⟩
abbrev S1000000x128 : Shape := ⟨2, ![1000000, 128]⟩
abbrev S100 : Shape := ⟨1, ![100]⟩
abbrev S484x100 : Shape := ⟨2, ![484, 100]⟩
abbrev S100x100 : Shape := ⟨2, ![100, 100]⟩
abbrev S384x100 : Shape := ⟨2, ![384, 100]⟩
abbrev S384 : Shape := ⟨1, ![384]⟩
abbrev S384x128 : Shape := ⟨2, ![384, 128]⟩
abbrev S256x128 : Shape := ⟨2, ![256, 128]⟩
abbrev S128 : Shape := ⟨1, ![128]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S131072 : S_.BroadcastsInDim S131072 (![] : Fin 0 → Fin S131072.rank)
  reducesTo_S131072_S_d0 : S131072.ReducesTo [0] S_
  bcast_S_S1000000x128 : S_.BroadcastsInDim S1000000x128 (![] : Fin 0 → Fin S1000000x128.rank)
  reducesTo_S1000000x128_S_d0_1 : S1000000x128.ReducesTo [0, 1] S_
  bcast_S_S100 : S_.BroadcastsInDim S100 (![] : Fin 0 → Fin S100.rank)
  reducesTo_S100_S_d0 : S100.ReducesTo [0] S_
  bcast_S_S484x100 : S_.BroadcastsInDim S484x100 (![] : Fin 0 → Fin S484x100.rank)
  reducesTo_S484x100_S_d0_1 : S484x100.ReducesTo [0, 1] S_
  bcast_S_S100x100 : S_.BroadcastsInDim S100x100 (![] : Fin 0 → Fin S100x100.rank)
  reducesTo_S100x100_S_d0_1 : S100x100.ReducesTo [0, 1] S_
  bcast_S_S384x100 : S_.BroadcastsInDim S384x100 (![] : Fin 0 → Fin S384x100.rank)
  reducesTo_S384x100_S_d0_1 : S384x100.ReducesTo [0, 1] S_
  bcast_S_S384 : S_.BroadcastsInDim S384 (![] : Fin 0 → Fin S384.rank)
  reducesTo_S384_S_d0 : S384.ReducesTo [0] S_
  bcast_S_S384x128 : S_.BroadcastsInDim S384x128 (![] : Fin 0 → Fin S384x128.rank)
  reducesTo_S384x128_S_d0_1 : S384x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg14 : FVec F S384 .f32) (main_arg15 : FVec F S256x128 .f32) (main_arg16 : FVec F S128 .f32) (main_v63 : IVec S_ 1) (main_v67 : IVec S_ 1) : IVec S_ 1 :=
  let main_v68 : IVec S_ 1 := andi main_v63 main_v67
  let main_v69 : FVec F S384 .f32 := Host.absf main_arg14
  let main_cst_26 : FVec F S_ .f32 := constant S_ .f32 0x7F800000#32
  let main_v70 : FVec F S384 .f32 := broadcastInDim S384 ![] bcast_S_S384 main_cst_26
  let main_v71 : IVec S384 1 := cmpf .olt main_v69 main_v70
  let main_c_27 : IVec S_ 1 := constantI S_ 1 1#1
  let main_v72 : IVec S_ 1 := (fun x v => Host.reduce IntOp.andi x v reducesTo_S384_S_d0 h_S_) main_v71 main_c_27
  let main_v73 : IVec S_ 1 := andi main_v68 main_v72
  let main_v74 : FVec F S256x128 .f32 := Host.absf main_arg15
  let main_cst_28 : FVec F S_ .f32 := constant S_ .f32 0x7F800000#32
  let main_v75 : FVec F S256x128 .f32 := broadcastInDim S256x128 ![] bcast_S_S256x128 main_cst_28
  let main_v76 : IVec S256x128 1 := cmpf .olt main_v74 main_v75
  let main_c_29 : IVec S_ 1 := constantI S_ 1 1#1
  let main_v77 : IVec S_ 1 := (fun x v => Host.reduce IntOp.andi x v reducesTo_S256x128_S_d0_1 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  main_v83

def fn_part3 {F : FTy → Type} [FloatOps F] (main_arg11 : FVec F S384x100 .f32) (main_arg12 : FVec F S384 .f32) (main_arg13 : FVec F S384x128 .f32) (main_arg14 : FVec F S384 .f32) (main_arg15 : FVec F S256x128 .f32) (main_arg16 : FVec F S128 .f32) (main_v48 : IVec S_ 1) (main_v49 : FVec F S100 .f32) (main_v50 : FVec F S100 .f32) : IVec S_ 1 :=
  let main_v51 : IVec S100 1 := cmpf .olt main_v49 main_v50
  let main_c_19 : IVec S_ 1 := constantI S_ 1 1#1
  let main_v52 : IVec S_ 1 := (fun x v => Host.reduce IntOp.andi x v reducesTo_S100_S_d0 h_S_) main_v51 main_c_19
  let main_v53 : IVec S_ 1 := andi main_v48 main_v52
  let main_v54 : FVec F S384x100 .f32 := Host.absf main_arg11
  let main_cst_20 : FVec F S_ .f32 := constant S_ .f32 0x7F800000#32
  let main_v55 : FVec F S384x100 .f32 := broadcastInDim S384x100 ![] bcast_S_S384x100 main_cst_20
  let main_v56 : IVec S384x100 1 := cmpf .olt main_v54 main_v55
  let main_c_21 : IVec S_ 1 := constantI S_ 1 1#1
  let main_v57 : IVec S_ 1 := (fun x v => Host.reduce IntOp.andi x v reducesTo_S384x100_S_d0_1 h_S_) main_v56 main_c_21
  let main_v58 : IVec S_ 1 := andi main_v53 main_v57
  let main_v59 : FVec F S384 .f32 := Host.absf main_arg12
  let main_cst_22 : FVec F S_ .f32 := constant S_ .f32 0x7F800000#32
  let main_v60 : FVec F S384 .f32 := broadcastInDim S384 ![] bcast_S_S384 main_cst_22
  let main_v61 : IVec S384 1 := cmpf .olt main_v59 main_v60
  let main_c_23 : IVec S_ 1 := constantI S_ 1 1#1
  let main_v62 : IVec S_ 1 := (fun x v => Host.reduce IntOp.andi x v reducesTo_S384_S_d0 h_S_) main_v61 main_c_23
  let main_v63 : IVec S_ 1 := andi main_v58 main_v62
  let main_v64 : FVec F S384x128 .f32 := Host.absf main_arg13
  let main_cst_24 : FVec F S_ .f32 := constant S_ .f32 0x7F800000#32
  let main_v65 : FVec F S384x128 .f32 := broadcastInDim S384x128 ![] bcast_S_S384x128 main_cst_24
  let main_v66 : IVec S384x128 1 := cmpf .olt main_v64 main_v65
  let main_c_25 : IVec S_ 1 := constantI S_ 1 1#1
  let main_v67 : IVec S_ 1 := (fun x v => Host.reduce IntOp.andi x v reducesTo_S384x128_S_d0_1 h_S_) main_v66 main_c_25
  fn_part4 (F := F) main_arg14 main_arg15 main_arg16 main_v63 main_v67

def fn_part2 {F : FTy → Type} [FloatOps F] (main_arg7 : FVec F S484x100 .f32) (main_arg8 : FVec F S100 .f32) (main_arg9 : FVec F S100x100 .f32) (main_arg10 : FVec F S100 .f32) (main_arg11 : FVec F S384x100 .f32) (main_arg12 : FVec F S384 .f32) (main_arg13 : FVec F S384x128 .f32) (main_arg14 : FVec F S384 .f32) (main_arg15 : FVec F S256x128 .f32) (main_arg16 : FVec F S128 .f32) (main_v33 : IVec S_ 1) : IVec S_ 1 :=
  let main_v34 : FVec F S484x100 .f32 := Host.absf main_arg7
  let main_cst_12 : FVec F S_ .f32 := constant S_ .f32 0x7F800000#32
  let main_v35 : FVec F S484x100 .f32 := broadcastInDim S484x100 ![] bcast_S_S484x100 main_cst_12
  let main_v36 : IVec S484x100 1 := cmpf .olt main_v34 main_v35
  let main_c_13 : IVec S_ 1 := constantI S_ 1 1#1
  let main_v37 : IVec S_ 1 := (fun x v => Host.reduce IntOp.andi x v reducesTo_S484x100_S_d0_1 h_S_) main_v36 main_c_13
  let main_v38 : IVec S_ 1 := andi main_v33 main_v37
  let main_v39 : FVec F S100 .f32 := Host.absf main_arg8
  let main_cst_14 : FVec F S_ .f32 := constant S_ .f32 0x7F800000#32
  let main_v40 : FVec F S100 .f32 := broadcastInDim S100 ![] bcast_S_S100 main_cst_14
  let main_v41 : IVec S100 1 := cmpf .olt main_v39 main_v40
  let main_c_15 : IVec S_ 1 := constantI S_ 1 1#1
  let main_v42 : IVec S_ 1 := (fun x v => Host.reduce IntOp.andi x v reducesTo_S100_S_d0 h_S_) main_v41 main_c_15
  let main_v43 : IVec S_ 1 := andi main_v38 main_v42
  let main_v44 : FVec F S100x100 .f32 := Host.absf main_arg9
  let main_cst_16 : FVec F S_ .f32 := constant S_ .f32 0x7F800000#32
  let main_v45 : FVec F S100x100 .f32 := broadcastInDim S100x100 ![] bcast_S_S100x100 main_cst_16
  let main_v46 : IVec S100x100 1 := cmpf .olt main_v44 main_v45
  let main_c_17 : IVec S_ 1 := constantI S_ 1 1#1
  let main_v47 : IVec S_ 1 := (fun x v => Host.reduce IntOp.andi x v reducesTo_S100x100_S_d0_1 h_S_) main_v46 main_c_17
  let main_v48 : IVec S_ 1 := andi main_v43 main_v47
  let main_v49 : FVec F S100 .f32 := Host.absf main_arg10
  let main_cst_18 : FVec F S_ .f32 := constant S_ .f32 0x7F800000#32
  let main_v50 : FVec F S100 .f32 := broadcastInDim S100 ![] bcast_S_S100 main_cst_18
  fn_part3 (F := F) main_arg11 main_arg12 main_arg13 main_arg14 main_arg15 main_arg16 main_v48 main_v49 main_v50

def fn_part1 {F : FTy → Type} [FloatOps F] (main_arg4 : FVec F S1000000x128 .f32) (main_arg5 : FVec F S100 .f32) (main_arg6 : FVec F S100 .f32) (main_arg7 : FVec F S484x100 .f32) (main_arg8 : FVec F S100 .f32) (main_arg9 : FVec F S100x100 .f32) (main_arg10 : FVec F S100 .f32) (main_arg11 : FVec F S384x100 .f32) (main_arg12 : FVec F S384 .f32) (main_arg13 : FVec F S384x128 .f32) (main_arg14 : FVec F S384 .f32) (main_arg15 : FVec F S256x128 .f32) (main_arg16 : FVec F S128 .f32) (main_v13 : IVec S_ 1) (main_v16 : IVec S131072 1) : IVec S_ 1 :=
  let main_c_5 : IVec S_ 1 := constantI S_ 1 1#1
  let main_v17 : IVec S_ 1 := (fun x v => Host.reduce IntOp.andi x v reducesTo_S131072_S_d0 h_S_) main_v16 main_c_5
  let main_v18 : IVec S_ 1 := andi main_v13 main_v17
  let main_v19 : FVec F S1000000x128 .f32 := Host.absf main_arg4
  let main_cst_6 : FVec F S_ .f32 := constant S_ .f32 0x7F800000#32
  let main_v20 : FVec F S1000000x128 .f32 := broadcastInDim S1000000x128 ![] bcast_S_S1000000x128 main_cst_6
  let main_v21 : IVec S1000000x128 1 := cmpf .olt main_v19 main_v20
  let main_c_7 : IVec S_ 1 := constantI S_ 1 1#1
  let main_v22 : IVec S_ 1 := (fun x v => Host.reduce IntOp.andi x v reducesTo_S1000000x128_S_d0_1 h_S_) main_v21 main_c_7
  let main_v23 : IVec S_ 1 := andi main_v18 main_v22
  let main_v24 : FVec F S100 .f32 := Host.absf main_arg5
  let main_cst_8 : FVec F S_ .f32 := constant S_ .f32 0x7F800000#32
  let main_v25 : FVec F S100 .f32 := broadcastInDim S100 ![] bcast_S_S100 main_cst_8
  let main_v26 : IVec S100 1 := cmpf .olt main_v24 main_v25
  let main_c_9 : IVec S_ 1 := constantI S_ 1 1#1
  let main_v27 : IVec S_ 1 := (fun x v => Host.reduce IntOp.andi x v reducesTo_S100_S_d0 h_S_) main_v26 main_c_9
  let main_v28 : IVec S_ 1 := andi main_v23 main_v27
  let main_v29 : FVec F S100 .f32 := Host.absf main_arg6
  let main_cst_10 : FVec F S_ .f32 := constant S_ .f32 0x7F800000#32
  let main_v30 : FVec F S100 .f32 := broadcastInDim S100 ![] bcast_S_S100 main_cst_10
  let main_v31 : IVec S100 1 := cmpf .olt main_v29 main_v30
  let main_c_11 : IVec S_ 1 := constantI S_ 1 1#1
  let main_v32 : IVec S_ 1 := (fun x v => Host.reduce IntOp.andi x v reducesTo_S100_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S131072x128 .f32) (main_arg1 : FVec F S131072x128 .f32) (main_arg2 : FVec F S131072x128 .f32) (main_arg3 : FVec F S131072 .f32) (main_arg4 : FVec F S1000000x128 .f32) (main_arg5 : FVec F S100 .f32) (main_arg6 : FVec F S100 .f32) (main_arg7 : FVec F S484x100 .f32) (main_arg8 : FVec F S100 .f32) (main_arg9 : FVec F S100x100 .f32) (main_arg10 : FVec F S100 .f32) (main_arg11 : FVec F S384x100 .f32) (main_arg12 : FVec F S384 .f32) (main_arg13 : FVec F S384x128 .f32) (main_arg14 : FVec F S384 .f32) (main_arg15 : FVec F S256x128 .f32) (main_arg16 : FVec F S128 .f32) (main_arg17 : IVec S131072 32) (main_arg18 : IVec S131072 32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S131072x128 .f32 := Host.absf main_arg1
  let main_cst_0 : FVec F S_ .f32 := constant S_ .f32 0x7F800000#32
  let main_v5 : FVec F S131072x128 .f32 := broadcastInDim S131072x128 ![] bcast_S_S131072x128 main_cst_0
  let main_v6 : IVec S131072x128 1 := cmpf .olt main_v4 main_v5
  let main_c_1 : IVec S_ 1 := constantI S_ 1 1#1
  let main_v7 : IVec S_ 1 := (fun x v => Host.reduce IntOp.andi x v reducesTo_S131072x128_S_d0_1 h_S_) main_v6 main_c_1
  let main_v8 : IVec S_ 1 := andi main_v3 main_v7
  let main_v9 : FVec F S131072x128 .f32 := Host.absf main_arg2
  let main_cst_2 : FVec F S_ .f32 := constant S_ .f32 0x7F800000#32
  let main_v10 : FVec F S131072x128 .f32 := broadcastInDim S131072x128 ![] bcast_S_S131072x128 main_cst_2
  let main_v11 : IVec S131072x128 1 := cmpf .olt main_v9 main_v10
  let main_c_3 : IVec S_ 1 := constantI S_ 1 1#1
  let main_v12 : IVec S_ 1 := (fun x v => Host.reduce IntOp.andi x v reducesTo_S131072x128_S_d0_1 h_S_) main_v11 main_c_3
  let main_v13 : IVec S_ 1 := andi main_v8 main_v12
  let main_v14 : FVec F S131072 .f32 := Host.absf main_arg3
  let main_cst_4 : FVec F S_ .f32 := constant S_ .f32 0x7F800000#32
  let main_v15 : FVec F S131072 .f32 := broadcastInDim S131072 ![] bcast_S_S131072 main_cst_4
  let main_v16 : IVec S131072 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S131072x128 : Shape := ⟨2, ![131072, 128]⟩
abbrev S131072 : Shape := ⟨1, ![131072]⟩
abbrev S1000000x128 : Shape := ⟨2, ![1000000, 128]⟩
abbrev S100 : Shape := ⟨1, ![100]⟩
abbrev S484x100 : Shape := ⟨2, ![484, 100]⟩
abbrev S100x100 : Shape := ⟨2, ![100, 100]⟩
abbrev S384x100 : Shape := ⟨2, ![384, 100]⟩
abbrev S384 : Shape := ⟨1, ![384]⟩
abbrev S384x128 : Shape := ⟨2, ![384, 128]⟩
abbrev S256x128 : Shape := ⟨2, ![256, 128]⟩
abbrev S128 : Shape := ⟨1, ![128]⟩
abbrev S_ : Shape := ⟨0, ![]⟩
abbrev S131072x1 : Shape := ⟨2, ![131072, 1]⟩
abbrev S1x100 : Shape := ⟨2, ![1, 100]⟩
abbrev S100x384 : Shape := ⟨2, ![100, 384]⟩
abbrev S128x384 : Shape := ⟨2, ![128, 384]⟩
abbrev S2x131072x128 : Shape := ⟨3, ![2, 131072, 128]⟩
abbrev S262144x128 : Shape := ⟨2, ![262144, 128]⟩
abbrev S1024x128 : Shape := ⟨2, ![1024, 128]⟩
abbrev S1024x1 : Shape := ⟨2, ![1024, 1]⟩
abbrev S2x1024x128 : Shape := ⟨3, ![2, 1024, 128]⟩
abbrev S1024x100 : Shape := ⟨2, ![1024, 100]⟩
abbrev S1024x484 : Shape := ⟨2, ![1024, 484]⟩
abbrev S1024x384 : Shape := ⟨2, ![1024, 384]⟩
abbrev S1x384 : Shape := ⟨2, ![1, 384]⟩
abbrev S1024x256 : Shape := ⟨2, ![1024, 256]⟩
abbrev S1x128 : Shape := ⟨2, ![1, 128]⟩
abbrev S1x1024x128 : Shape := ⟨3, ![1, 1024, 128]⟩

abbrev nBuf : Space → Nat
  | .hbm => 69
  | .vmem => 30
  | .smem => 0
  | _ => 0

abbrev bufTy : (tb : Table) → Fin (tcTables nBuf tb) → BufTy
  | .hbm, ⟨0, _⟩ => ⟨S131072x128, .f32⟩
  | .hbm, ⟨1, _⟩ => ⟨S131072x128, .f32⟩
  | .hbm, ⟨2, _⟩ => ⟨S131072x128, .f32⟩
  | .hbm, ⟨3, _⟩ => ⟨S131072, .f32⟩
  | .hbm, ⟨4, _⟩ => ⟨S1000000x128, .f32⟩
  | .hbm, ⟨5, _⟩ => ⟨S100, .f32⟩
  | .hbm, ⟨6, _⟩ => ⟨S100, .f32⟩
  | .hbm, ⟨7, _⟩ => ⟨S484x100, .f32⟩
  | .hbm, ⟨8, _⟩ => ⟨S100, .f32⟩
  | .hbm, ⟨9, _⟩ => ⟨S100x100, .f32⟩
  | .hbm, ⟨10, _⟩ => ⟨S100, .f32⟩
  | .hbm, ⟨11, _⟩ => ⟨S384x100, .f32⟩
  | .hbm, ⟨12, _⟩ => ⟨S384, .f32⟩
  | .hbm, ⟨13, _⟩ => ⟨S384x128, .f32⟩
  | .hbm, ⟨14, _⟩ => ⟨S384, .f32⟩
  | .hbm, ⟨15, _⟩ => ⟨S256x128, .f32⟩
  | .hbm, ⟨16, _⟩ => ⟨S128, .f32⟩
  | .hbm, ⟨17, _⟩ => ⟨S131072, .i32⟩
  | .hbm, ⟨18, _⟩ => ⟨S131072, .i32⟩
  | .hbm, ⟨19, _⟩ => ⟨S_, .i32⟩
  | .hbm, ⟨20, _⟩ => ⟨S131072, .i32⟩
  | .hbm, ⟨21, _⟩ => ⟨S131072, .i1⟩
  | .hbm, ⟨22, _⟩ => ⟨S_, .i32⟩
  | .hbm, ⟨23, _⟩ => ⟨S131072, .i32⟩
  | .hbm, ⟨24, _⟩ => ⟨S131072, .i32⟩
  | .hbm, ⟨25, _⟩ => ⟨S131072, .i32⟩
  | .hbm, ⟨26, _⟩ => ⟨S131072x1, .i32⟩
  | .hbm, ⟨27, _⟩ => ⟨S131072x128, .f32⟩
  | .hbm, ⟨28, _⟩ => ⟨S_, .i32⟩
  | .hbm, ⟨29, _⟩ => ⟨S131072, .i32⟩
  | .hbm, ⟨30, _⟩ => ⟨S131072, .i1⟩
  | .hbm, ⟨31, _⟩ => ⟨S_, .i32⟩
  | .hbm, ⟨32, _⟩ => ⟨S131072, .i32⟩
  | .hbm, ⟨33, _⟩ => ⟨S131072, .i32⟩
  | .hbm, ⟨34, _⟩ => ⟨S131072, .i32⟩
  | .hbm, ⟨35, _⟩ => ⟨S131072x1, .i32⟩
  | .hbm, ⟨36, _⟩ => ⟨S131072x128, .f32⟩
  | .hbm, ⟨37, _⟩ => ⟨S131072x1, .f32⟩
  | .hbm, ⟨38, _⟩ => ⟨S1x100, .f32⟩
  | .hbm, ⟨39, _⟩ => ⟨S1x100, .f32⟩
  | .hbm, ⟨40, _⟩ => ⟨S100x384, .f32⟩
  | .hbm, ⟨41, _⟩ => ⟨S100x384, .bf16⟩
  | .hbm, ⟨42, _⟩ => ⟨S128x384, .f32⟩
  | .hbm, ⟨43, _⟩ => ⟨S128x384, .bf16⟩
  | .hbm, ⟨44, _⟩ => ⟨S484x100, .bf16⟩
  | .hbm, ⟨45, _⟩ => ⟨S100x100, .bf16⟩
  | .hbm, ⟨46, _⟩ => ⟨S256x128, .bf16⟩
  | .hbm, ⟨47, _⟩ => ⟨S131072x128, .f32⟩
  | .hbm, ⟨48, _⟩ => ⟨S131072x128, .f32⟩
  | .hbm, ⟨49, _⟩ => ⟨S2x131072x128, .f32⟩
  | .hbm, ⟨50, _⟩ => ⟨S_, .i32⟩
  | .hbm, ⟨51, _⟩ => ⟨S131072, .i32⟩
  | .hbm, ⟨52, _⟩ => ⟨S131072, .i1⟩
  | .hbm, ⟨53, _⟩ => ⟨S_, .i32⟩
  | .hbm, ⟨54, _⟩ => ⟨S131072, .i32⟩
  | .hbm, ⟨55, _⟩ => ⟨S131072, .i32⟩
  | .hbm, ⟨56, _⟩ => ⟨S131072, .i32⟩
  | .hbm, ⟨57, _⟩ => ⟨S131072x1, .i32⟩
  | .hbm, ⟨58, _⟩ => ⟨S1000000x128, .f32⟩
  | .hbm, ⟨59, _⟩ => ⟨S_, .i32⟩
  | .hbm, ⟨60, _⟩ => ⟨S131072, .i32⟩
  | .hbm, ⟨61, _⟩ => ⟨S131072, .i1⟩
  | .hbm, ⟨62, _⟩ => ⟨S_, .i32⟩
  | .hbm, ⟨63, _⟩ => ⟨S131072, .i32⟩
  | .hbm, ⟨64, _⟩ => ⟨S131072, .i32⟩
  | .hbm, ⟨65, _⟩ => ⟨S131072, .i32⟩
  | .hbm, ⟨66, _⟩ => ⟨S131072x1, .i32⟩
  | .hbm, ⟨67, _⟩ => ⟨S1000000x128, .f32⟩
  | .hbm, ⟨68, _⟩ => ⟨S262144x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x1, .f32⟩
  | .local _ .vmem, ⟨7, _⟩ => ⟨S1024x1, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1x100, .f32⟩
  | .local _ .vmem, ⟨13, _⟩ => ⟨S1x100, .f32⟩
  | .local _ .vmem, ⟨14, _⟩ => ⟨S484x100, .bf16⟩
  | .local _ .vmem, ⟨15, _⟩ => ⟨S100, .f32⟩
  | .local _ .vmem, ⟨16, _⟩ => ⟨S100x100, .bf16⟩
  | .local _ .vmem, ⟨17, _⟩ => ⟨S100, .f32⟩
  | .local _ .vmem, ⟨18, _⟩ => ⟨S100x384, .bf16⟩
  | .local _ .vmem, ⟨19, _⟩ => ⟨S384, .f32⟩
  | .local _ .vmem, ⟨20, _⟩ => ⟨S128x384, .bf16⟩
  | .local _ .vmem, ⟨21, _⟩ => ⟨S384, .f32⟩
  | .local _ .vmem, ⟨22, _⟩ => ⟨S256x128, .bf16⟩
  | .local _ .vmem, ⟨23, _⟩ => ⟨S128, .f32⟩
  | .local _ .vmem, ⟨24, _⟩ => ⟨S1024x128, .f32⟩
  | .local _ .vmem, ⟨25, _⟩ => ⟨S1024x128, .f32⟩
  | .local _ .vmem, ⟨26, _⟩ => ⟨S1024x128, .f32⟩
  | .local _ .vmem, ⟨27, _⟩ => ⟨S1024x128, .f32⟩
  | .local _ .vmem, ⟨28, _⟩ => ⟨S2x1024x128, .f32⟩
  | .local _ .vmem, ⟨29, _⟩ => ⟨S2x1024x128, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_c_1 : Ref sig .tc := ⟨.hbm, 28, rfl⟩
abbrev main_call0_v7 : Ref sig .tc := ⟨.hbm, 29, rfl⟩
abbrev main_call0_v8 : Ref sig .tc := ⟨.hbm, 30, rfl⟩
abbrev main_call0_c_2 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_v15 : Ref sig .tc := ⟨.hbm, 38, rfl⟩
abbrev main_call0_v16 : Ref sig .tc := ⟨.hbm, 39, rfl⟩
abbrev main_call0_v17 : Ref sig .tc := ⟨.hbm, 40, rfl⟩
abbrev main_call0_v18 : Ref sig .tc := ⟨.hbm, 41, rfl⟩
abbrev main_call0_v19 : Ref sig .tc := ⟨.hbm, 42, rfl⟩
abbrev main_call0_v20 : Ref sig .tc := ⟨.hbm, 43, rfl⟩
abbrev main_call0_v21 : Ref sig .tc := ⟨.hbm, 44, rfl⟩
abbrev main_call0_v22 : Ref sig .tc := ⟨.hbm, 45, rfl⟩
abbrev main_call0_v23 : Ref sig .tc := ⟨.hbm, 46, rfl⟩
abbrev main_call0_v24_0 : Ref sig .tc := ⟨.hbm, 47, rfl⟩
abbrev main_call0_v24_1 : Ref sig .tc := ⟨.hbm, 48, rfl⟩
abbrev main_call0_v24_2 : Ref sig .tc := ⟨.hbm, 49, rfl⟩
abbrev main_call0_c_3 : Ref sig .tc := ⟨.hbm, 50, rfl⟩
abbrev main_call0_v25 : Ref sig .tc := ⟨.hbm, 51, rfl⟩
abbrev main_call0_v26 : Ref sig .tc := ⟨.hbm, 52, rfl⟩
abbrev main_call0_c_4 : Ref sig .tc := ⟨.hbm, 53, rfl⟩
abbrev main_call0_v27 : Ref sig .tc := ⟨.hbm, 54, rfl⟩
abbrev main_call0_v28 : Ref sig .tc := ⟨.hbm, 55, rfl⟩
abbrev main_call0_v29 : Ref sig .tc := ⟨.hbm, 56, rfl⟩
abbrev main_call0_v30 : Ref sig .tc := ⟨.hbm, 57, rfl⟩
abbrev main_call0_v31 : Ref sig .tc := ⟨.hbm, 58, rfl⟩
abbrev main_call0_c_5 : Ref sig .tc := ⟨.hbm, 59, rfl⟩
abbrev main_call0_v32 : Ref sig .tc := ⟨.hbm, 60, rfl⟩
abbrev main_call0_v33 : Ref sig .tc := ⟨.hbm, 61, rfl⟩
abbrev main_call0_c_6 : Ref sig .tc := ⟨.hbm, 62, rfl⟩
abbrev main_call0_v34 : Ref sig .tc := ⟨.hbm, 63, rfl⟩
abbrev main_call0_v35 : Ref sig .tc := ⟨.hbm, 64, rfl⟩
abbrev main_call0_v36 : Ref sig .tc := ⟨.hbm, 65, rfl⟩
abbrev main_call0_v37 : Ref sig .tc := ⟨.hbm, 66, rfl⟩
abbrev main_v0_1 : Ref sig .tc := ⟨.hbm, 67, rfl⟩
abbrev main_v0_0 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x100 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x100 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S484x100 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S100 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S100x100 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S100 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S100x384 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S384 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x384 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S384 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S1024x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1024x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S2x1024x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  bcast_S100_S1x100_1 : S100.BroadcastsInDim S1x100 (![1] : Fin 1 → Fin S1x100.rank)
  transposes_S384x100_S100x384_1_0 : S384x100.Transposes [1, 0] S100x384
  bitsLt_bf16_f32 : FTy.bits .bf16 < FTy.bits .f32
  transposes_S384x128_S128x384_1_0 : S384x128.Transposes [1, 0] S128x384
  shapeCasts_S2x131072x128_S262144x128 : S2x131072x128.ShapeCasts S262144x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1024x1_S1024x100 : S1024x1.Broadcasts S1024x100
  broadcasts_S1x100_S1024x100 : S1x100.Broadcasts S1024x100
  concatenates_S1024x128_S1024x128_S1024x128_S1024x100_S1024x484_d1 : Shape.Concatenates [S1024x128, S1024x128, S1024x128, S1024x100] S1024x484 1
  inb_S484x100_S484x100_0_0 : ∀ a, (![0, 0] : Fin 2 → Nat) a + S484x100.size a ≤ S484x100.size a
  h_S484x100 : 0 < S484x100.numel
  shapeCasts_S484x100_S484x100 : S484x100.ShapeCasts S484x100
  inb_S100_S100_0 : ∀ a, (![0] : Fin 1 → Nat) a + S100.size a ≤ S100.size a
  h_S100 : 0 < S100.numel
  inb_S100x100_S100x100_0_0 : ∀ a, (![0, 0] : Fin 2 → Nat) a + S100x100.size a ≤ S100x100.size a
  h_S100x100 : 0 < S100x100.numel
  shapeCasts_S100x100_S100x100 : S100x100.ShapeCasts S100x100
  shapeCasts_S100_S1x100 : S100.ShapeCasts S1x100
  inb_S100x384_S100x384_0_0 : ∀ a, (![0, 0] : Fin 2 → Nat) a + S100x384.size a ≤ S100x384.size a
  h_S100x384 : 0 < S100x384.numel
  shapeCasts_S100x384_S100x384 : S100x384.ShapeCasts S100x384
  inb_S384_S384_0 : ∀ a, (![0] : Fin 1 → Nat) a + S384.size a ≤ S384.size a
  h_S384 : 0 < S384.numel
  inb_S128x384_S128x384_0_0 : ∀ a, (![0, 0] : Fin 2 → Nat) a + S128x384.size a ≤ S128x384.size a
  h_S128x384 : 0 < S128x384.numel
  shapeCasts_S128x384_S128x384 : S128x384.ShapeCasts S128x384
  shapeCasts_S384_S1x384 : S384.ShapeCasts S1x384
  broadcasts_S1x384_S1024x384 : S1x384.Broadcasts S1024x384
  slices_S1024x384_o0_0_S1024x128 : S1024x384.Slices ![0, 0] S1024x128
  slices_S1024x384_o0_128_S1024x128 : S1024x384.Slices ![0, 128] S1024x128
  slices_S1024x384_o0_256_S1024x128 : S1024x384.Slices ![0, 256] S1024x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  concatenates_S1024x128_S1024x128_S1024x256_d1 : Shape.Concatenates [S1024x128, S1024x128] S1024x256 1
  shapeCasts_S128_S1x128 : S128.ShapeCasts S1x128
  broadcasts_S1x128_S1024x128 : S1x128.Broadcasts S1024x128
  inb_S2x1024x128_S1x1024x128_0_0_0 : ∀ a, (![0, 0, 0] : Fin 3 → Nat) a + S1x1024x128.size a ≤ S2x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  inb_S2x1024x128_S1x1024x128_1_0_0 : ∀ a, (![1, 0, 0] : Fin 3 → Nat) a + S1x1024x128.size a ≤ S2x1024x128.size a
  gather_S1000000x128_S131072x1_S131072x128_1_0_n_n_0_1_1128_wf : GatherDims.WF S1000000x128 S131072x1 S131072x128 [1] [0] [] [0] [] 1 ![1, 128]
  scatter_S1000000x128_S131072x1_S131072x128_1_0_0_1_wf : ScatterDims.WF S1000000x128 S131072x1 S131072x128 [1] [0] [0] 1
  dot_S1024x484_S484x100_S1024x100_1_0_0_1_n_n_wf : DotDims.WF S1024x484 S484x100 S1024x100 [1] [0] [0] [1] [] []
  dot_S1024x100_S100x100_S1024x100_1_0_0_1_n_n_wf : DotDims.WF S1024x100 S100x100 S1024x100 [1] [0] [0] [1] [] []
  dot_S1024x100_S100x384_S1024x384_1_0_0_1_n_n_wf : DotDims.WF S1024x100 S100x384 S1024x384 [1] [0] [0] [1] [] []
  dot_S1024x128_S128x384_S1024x384_1_0_0_1_n_n_wf : DotDims.WF S1024x128 S128x384 S1024x384 [1] [0] [0] [1] [] []
  dot_S1024x256_S256x128_S1024x128_1_0_0_1_n_n_wf : DotDims.WF S1024x256 S256x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S131072x128.size a
  hwx0_0 : ∀ i : grid0.Coords, EltTy.bits .f32 = 32 ∨ (Rect.block (s := S131072x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S131072x128.size a
  hwx0_1 : ∀ i : grid0.Coords, EltTy.bits .f32 = 32 ∨ (Rect.block (s := S131072x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S131072x128.size a
  hwx0_2 : ∀ i : grid0.Coords, EltTy.bits .f32 = 32 ∨ (Rect.block (s := S131072x128) S1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S131072x1.size a
  hwx0_3 : ∀ i : grid0.Coords, EltTy.bits .f32 = 32 ∨ (Rect.block (s := S131072x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S131072x128.size a
  hwx0_4 : ∀ i : grid0.Coords, EltTy.bits .f32 = 32 ∨ (Rect.block (s := S131072x128) S1024x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S131072x128.size a
  hwx0_5 : ∀ i : grid0.Coords, EltTy.bits .f32 = 32 ∨ (Rect.block (s := S131072x128) S1024x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x100.size a ≤ S1x100.size a
  hwx0_6 : ∀ i : grid0.Coords, EltTy.bits .f32 = 32 ∨ (Rect.block (s := S1x100) S1x100.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x100.size a ≤ S1x100.size a
  hwx0_7 : ∀ i : grid0.Coords, EltTy.bits .f32 = 32 ∨ (Rect.block (s := S1x100) S1x100.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S484x100.size a ≤ S484x100.size a
  hwx0_8 : ∀ i : grid0.Coords, EltTy.bits .bf16 = 32 ∨ (Rect.block (s := S484x100) S484x100.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S100.size a ≤ S100.size a
  hwx0_9 : ∀ i : grid0.Coords, EltTy.bits .f32 = 32 ∨ (Rect.block (s := S100) S100.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S100x100.size a ≤ S100x100.size a
  hwx0_10 : ∀ i : grid0.Coords, EltTy.bits .bf16 = 32 ∨ (Rect.block (s := S100x100) S100x100.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S100.size a ≤ S100.size a
  hwx0_11 : ∀ i : grid0.Coords, EltTy.bits .f32 = 32 ∨ (Rect.block (s := S100) S100.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S100x384.size a ≤ S100x384.size a
  hwx0_12 : ∀ i : grid0.Coords, EltTy.bits .bf16 = 32 ∨ (Rect.block (s := S100x384) S100x384.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S384.size a ≤ S384.size a
  hwx0_13 : ∀ i : grid0.Coords, EltTy.bits .f32 = 32 ∨ (Rect.block (s := S384) S384.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128x384.size a ≤ S128x384.size a
  hwx0_14 : ∀ i : grid0.Coords, EltTy.bits .bf16 = 32 ∨ (Rect.block (s := S128x384) S128x384.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S384.size a ≤ S384.size a
  hwx0_15 : ∀ i : grid0.Coords, EltTy.bits .f32 = 32 ∨ (Rect.block (s := S384) S384.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S256x128.size a ≤ S256x128.size a
  hwx0_16 : ∀ i : grid0.Coords, EltTy.bits .bf16 = 32 ∨ (Rect.block (s := S256x128) S256x128.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S128.size a ≤ S128.size a
  hwx0_17 : ∀ i : grid0.Coords, EltTy.bits .f32 = 32 ∨ (Rect.block (s := S128) S128.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S1024x128.size a ≤ S131072x128.size a
  hwx0_18 : ∀ i : grid0.Coords, EltTy.bits .f32 = 32 ∨ (Rect.block (s := S131072x128) S1024x128.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S1024x128.size a ≤ S131072x128.size a
  hwx0_19 : ∀ i : grid0.Coords, EltTy.bits .f32 = 32 ∨ (Rect.block (s := S131072x128) S1024x128.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S2x1024x128.size a ≤ S2x131072x128.size a
  hwx0_20 : ∀ i : grid0.Coords, EltTy.bits .f32 = 32 ∨ (Rect.block (s := S2x131072x128) S2x1024x128.size (cc0_transform_20 i) (hinb0_20 i)).WholeWords (EltTy.packing .f32)

variable [Facts₀]

def gather_S1000000x128_S131072x1_S131072x128_1_0_n_n_0_1_1128 : GatherDims S1000000x128 S131072x1 S131072x128 where
  offsetDims := [1]
  collapsedSliceDims := [0]
  operandBatchingDims := []
  startIndicesBatchingDims := []
  startIndexMap := [0]
  indexVectorDim := 1
  sliceSizes := ![1, 128]
  wf := gather_S1000000x128_S131072x1_S131072x128_1_0_n_n_0_1_1128_wf
def scatter_S1000000x128_S131072x1_S131072x128_1_0_0_1 : ScatterDims S1000000x128 S131072x1 S131072x128 where
  updateWindowDims := [1]
  insertedWindowDims := [0]
  scatterDimsToOperandDims := [0]
  indexVectorDim := 1
  wf := scatter_S1000000x128_S131072x1_S131072x128_1_0_0_1_wf
def dot_S1024x484_S484x100_S1024x100_1_0_0_1_n_n : DotDims S1024x484 S484x100 S1024x100 where
  lhsContracting := [1]
  rhsContracting := [0]
  lhsNonContracting := [0]
  rhsNonContracting := [1]
  lhsBatch := []
  rhsBatch := []
  wf := dot_S1024x484_S484x100_S1024x100_1_0_0_1_n_n_wf
def dot_S1024x100_S100x100_S1024x100_1_0_0_1_n_n : DotDims S1024x100 S100x100 S1024x100 where
  lhsContracting := [1]
  rhsContracting := [0]
  lhsNonContracting := [0]
  rhsNonContracting := [1]
  lhsBatch := []
  rhsBatch := []
  wf := dot_S1024x100_S100x100_S1024x100_1_0_0_1_n_n_wf
def dot_S1024x100_S100x384_S1024x384_1_0_0_1_n_n : DotDims S1024x100 S100x384 S1024x384 where
  lhsContracting := [1]
  rhsContracting := [0]
  lhsNonContracting := [0]
  rhsNonContracting := [1]
  lhsBatch := []
  rhsBatch := []
  wf := dot_S1024x100_S100x384_S1024x384_1_0_0_1_n_n_wf
def dot_S1024x128_S128x384_S1024x384_1_0_0_1_n_n : DotDims S1024x128 S128x384 S1024x384 where
  lhsContracting := [1]
  rhsContracting := [0]
  lhsNonContracting := [0]
  rhsNonContracting := [1]
  lhsBatch := []
  rhsBatch := []
  wf := dot_S1024x128_S128x384_S1024x384_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf

abbrev win0_0 : Pipeline.Window sig grid0 :=
  Pipeline.Window.ofSpec (Memref.whole main_call0_v6) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v13) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v14) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S1024x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S1024x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_call0_v15) S1x100.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v16) S1x100.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v21) S484x100.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S100.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_call0_v22) S100x100.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg10) S100.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_call0_v18) S100x384.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg12) S384.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_call0_v20) S128x384.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg14) S384.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_call0_v23) S256x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg16) S128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_call0_v24_0) S1024x128.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_call0_v24_1) S1024x128.size cc0_transform_19 reads0_19 true false 2 stage0_19 sem0_19
    hrank0 hreads0_19 hinb0_19 nbuf0_19 (Memref.isWhole_whole _) hwx0_19 hstage0_19

abbrev win0_20 : Pipeline.Window sig grid0 :=
  Pipeline.Window.ofSpec (Memref.whole main_call0_v24_2) S2x1024x128.size cc0_transform_20 reads0_20 true false 2 stage0_20 sem0_20
    hrank0 hreads0_20 hinb0_20 nbuf0_20 (Memref.isWhole_whole _) hwx0_20 hstage0_20

abbrev win0 : Fin 21 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | ⟨_ + 21, h⟩ => absurd h (Nat.not_lt.2 (Nat.le_add_left _ _))
abbrev spec0 : Fin 21 → Pipeline.WinSpec sig grid0.rank := fun w => (win0 w).toWinSpec

class Facts : Prop extends Facts₀ where

variable [Facts]
-- ==== ReferenceIdeal.lean ====
abbrev S131072x128 : Shape := ⟨2, ![131072, 128]⟩
abbrev S131072 : Shape := ⟨1, ![131072]⟩
abbrev S1000000x128 : Shape := ⟨2, ![1000000, 128]⟩
abbrev S100 : Shape := ⟨1, ![100]⟩
abbrev S484x100 : Shape := ⟨2, ![484, 100]⟩
abbrev S100x100 : Shape := ⟨2, ![100, 100]⟩
abbrev S384x100 : Shape := ⟨2, ![384, 100]⟩
abbrev S384 : Shape := ⟨1, ![384]⟩
abbrev S384x128 : Shape := ⟨2, ![384, 128]⟩
abbrev S256x128 : Shape := ⟨2, ![256, 128]⟩
abbrev S128 : Shape := ⟨1, ![128]⟩
abbrev S_ : Shape := ⟨0, ![]⟩
abbrev S131072x1 : Shape := ⟨2, ![131072, 1]⟩
abbrev S1x100 : Shape := ⟨2, ![1, 100]⟩
abbrev S131072x100 : Shape := ⟨2, ![131072, 100]⟩
abbrev S131072x484 : Shape := ⟨2, ![131072, 484]⟩
abbrev S100x384 : Shape := ⟨2, ![100, 384]⟩
abbrev S131072x384 : Shape := ⟨2, ![131072, 384]⟩
abbrev S1x384 : Shape := ⟨2, ![1, 384]⟩
abbrev S128x384 : Shape := ⟨2, ![128, 384]⟩
abbrev S131072x256 : Shape := ⟨2, ![131072, 256]⟩
abbrev S1x128 : Shape := ⟨2, ![1, 128]⟩
abbrev S262144x128 : Shape := ⟨2, ![262144, 128]⟩

abbrev nBuf : Space → Nat
  | .hbm => 185
  | .vmem => 0
  | .smem => 0
  | _ => 0

abbrev hbmTy0_0 (i : Nat) : BufTy := match i % 128 with
  | 0 => ⟨S131072x128, .f32⟩
  | 1 => ⟨S131072x128, .f32⟩
  | 2 => ⟨S131072x128, .f32⟩
  | 3 => ⟨S131072, .f32⟩
  | 4 => ⟨S1000000x128, .f32⟩
  | 5 => ⟨S100, .f32⟩
  | 6 => ⟨S100, .f32⟩
  | 7 => ⟨S484x100, .f32⟩
  | 8 => ⟨S100, .f32⟩
  | 9 => ⟨S100x100, .f32⟩
  | 10 => ⟨S100, .f32⟩
  | 11 => ⟨S384x100, .f32⟩
  | 12 => ⟨S384, .f32⟩
  | 13 => ⟨S384x128, .f32⟩
  | 14 => ⟨S384, .f32⟩
  | 15 => ⟨S256x128, .f32⟩
  | 16 => ⟨S128, .f32⟩
  | 17 => ⟨S131072, .i32⟩
  | 18 => ⟨S131072, .i32⟩
  | 19 => ⟨S_, .i32⟩
  | 20 => ⟨S131072, .i32⟩
  | 21 => ⟨S131072, .i1⟩
  | 22 => ⟨S_, .i32⟩
  | 23 => ⟨S131072, .i32⟩
  | 24 => ⟨S131072, .i32⟩
  | 25 => ⟨S131072, .i32⟩
  | 26 => ⟨S131072x1, .i32⟩
  | 27 => ⟨S131072x128, .f32⟩
  | 28 => ⟨S_, .i32⟩
  | 29 => ⟨S131072, .i32⟩
  | 30 => ⟨S131072, .i1⟩
  | 31 => ⟨S_, .i32⟩
  | 32 => ⟨S131072, .i32⟩
  | 33 => ⟨S131072, .i32⟩
  | 34 => ⟨S131072, .i32⟩
  | 35 => ⟨S131072x1, .i32⟩
  | 36 => ⟨S131072x128, .f32⟩
  | 37 => ⟨S131072x1, .f32⟩
  | 38 => ⟨S1x100, .f32⟩
  | 39 => ⟨S131072x100, .f32⟩
  | 40 => ⟨S131072x100, .f32⟩
  | 41 => ⟨S131072x100, .f32⟩
  | 42 => ⟨S1x100, .f32⟩
  | 43 => ⟨S131072x100, .f32⟩
  | 44 => ⟨S131072x100, .f32⟩
  | 45 => ⟨S131072x100, .f32⟩
  | 46 => ⟨S131072x484, .f32⟩
  | 47 => ⟨S131072x484, .f32⟩
  | 48 => ⟨S131072x100, .f32⟩
  | 49 => ⟨S1x100, .f32⟩
  | 50 => ⟨S131072x100, .f32⟩
  | 51 => ⟨S131072x100, .f32⟩
  | 52 => ⟨S_, .f32⟩
  | 53 => ⟨S131072x100, .f32⟩
  | 54 => ⟨S131072x100, .f32⟩
  | 55 => ⟨S131072x100, .f32⟩
  | 56 => ⟨S1x100, .f32⟩
  | 57 => ⟨S131072x100, .f32⟩
  | 58 => ⟨S131072x100, .f32⟩
  | 59 => ⟨S131072x100, .f32⟩
  | 60 => ⟨S1x100, .f32⟩
  | 61 => ⟨S131072x100, .f32⟩
  | 62 => ⟨S131072x100, .f32⟩
  | 63 => ⟨S_, .f32⟩
  | 64 => ⟨S131072x100, .f32⟩
  | 65 => ⟨S131072x100, .f32⟩
  | 66 => ⟨S131072x100, .f32⟩
  | 67 => ⟨S1x100, .f32⟩
  | 68 => ⟨S131072x100, .f32⟩
  | 69 => ⟨S131072x100, .f32⟩
  | 70 => ⟨S100x384, .f32⟩
  | 71 => ⟨S131072x384, .f32⟩
  | 72 => ⟨S1x384, .f32⟩
  | 73 => ⟨S131072x384, .f32⟩
  | 74 => ⟨S131072x384, .f32⟩
  | 75 => ⟨S128x384, .f32⟩
  | 76 => ⟨S131072x384, .f32⟩
  | 77 => ⟨S1x384, .f32⟩
  | 78 => ⟨S131072x384, .f32⟩
  | 79 => ⟨S131072x384, .f32⟩
  | 80 => ⟨S131072x128, .f32⟩
  | 81 => ⟨S131072x128, .f32⟩
  | 82 => ⟨S131072x128, .f32⟩
  | 83 => ⟨S131072x128, .f32⟩
  | 84 => ⟨S131072x128, .f32⟩
  | 85 => ⟨S131072x128, .f32⟩
  | 86 => ⟨S131072x128, .f32⟩
  | 87 => ⟨S131072x128, .f32⟩
  | 88 => ⟨S131072x128, .f32⟩
  | 89 => ⟨S_, .f32⟩
  | 90 => ⟨S131072x128, .f32⟩
  | 91 => ⟨S131072x128, .f32⟩
  | 92 => ⟨S_, .f32⟩
  | 93 => ⟨S131072x128, .f32⟩
  | 94 => ⟨S131072x128, .f32⟩
  | 95 => ⟨S131072x128, .f32⟩
  | 96 => ⟨S131072x128, .f32⟩
  | 97 => ⟨S131072x128, .f32⟩
  | 98 => ⟨S_, .f32⟩
  | 99 => ⟨S131072x128, .f32⟩
  | 100 => ⟨S131072x128, .f32⟩
  | 101 => ⟨S_, .f32⟩
  | 102 => ⟨S131072x128, .f32⟩
  | 103 => ⟨S131072x128, .f32⟩
  | 104 => ⟨S131072x128, .f32⟩
  | 105 => ⟨S131072x128, .f32⟩
  | 106 => ⟨S131072x128, .f32⟩
  | 107 => ⟨S_, .f32⟩
  | 108 => ⟨S131072x128, .f32⟩
  | 109 => ⟨S131072x128, .f32⟩
  | 110 => ⟨S131072x128, .f32⟩
  | 111 => ⟨S131072x128, .f32⟩
  | 112 => ⟨S131072x128, .f32⟩
  | 113 => ⟨S100x384, .f32⟩
  | 114 => ⟨S131072x384, .f32⟩
  | 115 => ⟨S1x384, .f32⟩
  | 116 => ⟨S131072x384, .f32⟩
  | 117 => ⟨S131072x384, .f32⟩
  | 118 => ⟨S128x384, .f32⟩
  | 119 => ⟨S131072x384, .f32⟩
  | 120 => ⟨S1x384, .f32⟩
  | 121 => ⟨S131072x384, .f32⟩
  | 122 => ⟨S131072x384, .f32⟩
  | 123 => ⟨S131072x128, .f32⟩
  | 124 => ⟨S131072x128, .f32⟩
  | 125 => ⟨S131072x128, .f32⟩
  | 126 => ⟨S131072x128, .f32⟩
  | 127 => ⟨S131072x128, .f32⟩
  | _ => ⟨S131072x128, .f32⟩

abbrev hbmTy0_1 (i : Nat) : BufTy := match i % 128 with
  | 0 => ⟨S131072x128, .f32⟩
  | 1 => ⟨S131072x128, .f32⟩
  | 2 => ⟨S131072x128, .f32⟩
  | 3 => ⟨S131072x128, .f32⟩
  | 4 => ⟨S_, .f32⟩
  | 5 => ⟨S131072x128, .f32⟩
  | 6 => ⟨S131072x128, .f32⟩
  | 7 => ⟨S_, .f32⟩
  | 8 => ⟨S131072x128, .f32⟩
  | 9 => ⟨S131072x128, .f32⟩
  | 10 => ⟨S131072x128, .f32⟩
  | 11 => ⟨S131072x128, .f32⟩
  | 12 => ⟨S131072x128, .f32⟩
  | 13 => ⟨S_, .f32⟩
  | 14 => ⟨S131072x128, .f32⟩
  | 15 => ⟨S131072x128, .f32⟩
  | 16 => ⟨S_, .f32⟩
  | 17 => ⟨S131072x128, .f32⟩
  | 18 => ⟨S131072x128, .f32⟩
  | 19 => ⟨S131072x128, .f32⟩
  | 20 => ⟨S131072x128, .f32⟩
  | 21 => ⟨S131072x128, .f32⟩
  | 22 => ⟨S_, .f32⟩
  | 23 => ⟨S131072x128, .f32⟩
  | 24 => ⟨S131072x128, .f32⟩
  | 25 => ⟨S131072x128, .f32⟩
  | 26 => ⟨S131072x128, .f32⟩
  | 27 => ⟨S131072x128, .f32⟩
  | 28 => ⟨S_, .i32⟩
  | 29 => ⟨S131072, .i32⟩
  | 30 => ⟨S131072, .i1⟩
  | 31 => ⟨S_, .i32⟩
  | 32 => ⟨S131072, .i32⟩
  | 33 => ⟨S131072, .i32⟩
  | 34 => ⟨S131072, .i32⟩
  | 35 => ⟨S131072x1, .i32⟩
  | 36 => ⟨S1000000x128, .f32⟩
  | 37 => ⟨S_, .i32⟩
  | 38 => ⟨S131072, .i32⟩
  | 39 => ⟨S131072, .i1⟩
  | 40 => ⟨S_, .i32⟩
  | 41 => ⟨S131072, .i32⟩
  | 42 => ⟨S131072, .i32⟩
  | 43 => ⟨S131072, .i32⟩
  | 44 => ⟨S131072x1, .i32⟩
  | 45 => ⟨S1000000x128, .f32⟩
  | 46 => ⟨S131072x256, .f32⟩
  | 47 => ⟨S131072x128, .f32⟩
  | 48 => ⟨S1x128, .f32⟩
  | 49 => ⟨S131072x128, .f32⟩
  | 50 => ⟨S131072x128, .f32⟩
  | 51 => ⟨S131072x256, .f32⟩
  | 52 => ⟨S131072x128, .f32⟩
  | 53 => ⟨S1x128, .f32⟩
  | 54 => ⟨S131072x128, .f32⟩
  | 55 => ⟨S131072x128, .f32⟩
  | 56 => ⟨S262144x128, .f32⟩
  | _ => ⟨S131072x128, .f32⟩

abbrev hbmTy (i : Nat) : BufTy := match i / 128 with
  | 0 => hbmTy0_0 i
  | 1 => hbmTy0_1 i
  | _ => ⟨S131072x128, .f32⟩

abbrev bufTy : (tb : Table) → Fin (tcTables nBuf tb) → BufTy
  | .hbm, ⟨i, _⟩ => hbmTy i
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_c_1 : Ref sig .tc := ⟨.hbm, 28, rfl⟩
abbrev main_v7 : Ref sig .tc := ⟨.hbm, 29, rfl⟩
abbrev main_v8 : Ref sig .tc := ⟨.hbm, 30, rfl⟩
abbrev main_c_2 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_call0_cst : Ref sig .tc := ⟨.hbm, 52, rfl⟩
abbrev main_call0_v0 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_call1_cst : Ref sig .tc := ⟨.hbm, 63, rfl⟩
abbrev main_call1_v0 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst : Ref sig .tc := ⟨.hbm, 89, rfl⟩
abbrev main_v62 : Ref sig .tc := ⟨.hbm, 90, rfl⟩
abbrev main_v63 : Ref sig .tc := ⟨.hbm, 91, rfl⟩
abbrev main_cst_3 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_4 : Ref sig .tc := ⟨.hbm, 98, rfl⟩
abbrev main_v69 : Ref sig .tc := ⟨.hbm, 99, rfl⟩
abbrev main_v70 : Ref sig .tc := ⟨.hbm, 100, rfl⟩
abbrev main_cst_5 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_6 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_cst_7 : Ref sig .tc := ⟨.hbm, 132, rfl⟩
abbrev main_v100 : Ref sig .tc := ⟨.hbm, 133, rfl⟩
abbrev main_v101 : Ref sig .tc := ⟨.hbm, 134, rfl⟩
abbrev main_cst_8 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_cst_9 : Ref sig .tc := ⟨.hbm, 141, rfl⟩
abbrev main_v107 : Ref sig .tc := ⟨.hbm, 142, rfl⟩
abbrev main_v108 : Ref sig .tc := ⟨.hbm, 143, rfl⟩
abbrev main_cst_10 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_cst_11 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_c_12 : Ref sig .tc := ⟨.hbm, 156, rfl⟩
abbrev main_v119 : Ref sig .tc := ⟨.hbm, 157, rfl⟩
abbrev main_v120 : Ref sig .tc := ⟨.hbm, 158, rfl⟩
abbrev main_c_13 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_c_14 : Ref sig .tc := ⟨.hbm, 165, rfl⟩
abbrev main_v126 : Ref sig .tc := ⟨.hbm, 166, rfl⟩
abbrev main_v127 : Ref sig .tc := ⟨.hbm, 167, rfl⟩
abbrev main_c_15 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩

abbrev nD : Nat := 1
abbrev τ : Topo := Topo.v7x

variable {F : FTy → Type} [FloatOps F]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  bcast_S100_S1x100_1 : S100.BroadcastsInDim S1x100 (![1] : Fin 1 → Fin S1x100.rank)
  bcast_S131072x1_S131072x100_0_1 : S131072x1.BroadcastsInDim S131072x100 (![0, 1] : Fin 2 → Fin S131072x100.rank)
  bcast_S1x100_S131072x100_0_1 : S1x100.BroadcastsInDim S131072x100 (![0, 1] : Fin 2 → Fin S131072x100.rank)
  concatenates_S131072x128_S131072x128_S131072x128_S131072x100_S131072x484_d1 : Shape.Concatenates [S131072x128, S131072x128, S131072x128, S131072x100] S131072x484 1
  bcast_S_S131072x100 : S_.BroadcastsInDim S131072x100 (![] : Fin 0 → Fin S131072x100.rank)
  transposes_S384x100_S100x384_1_0 : S384x100.Transposes [1, 0] S100x384
  bcast_S384_S1x384_1 : S384.BroadcastsInDim S1x384 (![1] : Fin 1 → Fin S1x384.rank)
  bcast_S1x384_S131072x384_0_1 : S1x384.BroadcastsInDim S131072x384 (![0, 1] : Fin 2 → Fin S131072x384.rank)
  transposes_S384x128_S128x384_1_0 : S384x128.Transposes [1, 0] S128x384
  slices_S131072x384_S131072x128_0_0 : S131072x384.Slices ![0, 0] S131072x128
  slices_S131072x384_S131072x128_0_128 : S131072x384.Slices ![0, 128] S131072x128
  slices_S131072x384_S131072x128_0_256 : S131072x384.Slices ![0, 256] S131072x128
  bcast_S_S131072x128 : S_.BroadcastsInDim S131072x128 (![] : Fin 0 → Fin S131072x128.rank)
  concatenates_S131072x128_S131072x128_S131072x256_d1 : Shape.Concatenates [S131072x128, S131072x128] S131072x256 1
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  concatenates_S131072x128_S131072x128_S262144x128_d0 : Shape.Concatenates [S131072x128, S131072x128] S262144x128 0
  gather_S1000000x128_S131072x1_S131072x128_1_0_n_n_0_1_1128_wf : GatherDims.WF S1000000x128 S131072x1 S131072x128 [1] [0] [] [0] [] 1 ![1, 128]
  dot_S131072x484_S484x100_S131072x100_1_0_0_1_n_n_wf : DotDims.WF S131072x484 S484x100 S131072x100 [1] [0] [0] [1] [] []
  dot_S131072x100_S100x100_S131072x100_1_0_0_1_n_n_wf : DotDims.WF S131072x100 S100x100 S131072x100 [1] [0] [0] [1] [] []
  dot_S131072x100_S100x384_S131072x384_1_0_0_1_n_n_wf : DotDims.WF S131072x100 S100x384 S131072x384 [1] [0] [0] [1] [] []
  dot_S131072x128_S128x384_S131072x384_1_0_0_1_n_n_wf : DotDims.WF S131072x128 S128x384 S131072x384 [1] [0] [0] [1] [] []
  scatter_S1000000x128_S131072x1_S131072x128_1_0_0_1_wf : ScatterDims.WF S1000000x128 S131072x1 S131072x128 [1] [0] [0] 1
  dot_S131072x256_S256x128_S131072x128_1_0_0_1_n_n_wf : DotDims.WF S131072x256 S256x128 S131072x128 [1] [0] [0] [1] [] []

variable [Facts₀]

def gather_S1000000x128_S131072x1_S131072x128_1_0_n_n_0_1_1128 : GatherDims S1000000x128 S131072x1 S131072x128 where
  offsetDims := [1]
  collapsedSliceDims := [0]
  operandBatchingDims := []
  startIndicesBatchingDims := []
  startIndexMap := [0]
  indexVectorDim := 1
  sliceSizes := ![1, 128]
  wf := gather_S1000000x128_S131072x1_S131072x128_1_0_n_n_0_1_1128_wf
def dot_S131072x484_S484x100_S131072x100_1_0_0_1_n_n : DotDims S131072x484 S484x100 S131072x100 where
  lhsContracting := [1]
  rhsContracting := [0]
  lhsNonContracting := [0]
  rhsNonContracting := [1]
  lhsBatch := []
  rhsBatch := []
  wf := dot_S131072x484_S484x100_S131072x100_1_0_0_1_n_n_wf
def dot_S131072x100_S100x100_S131072x100_1_0_0_1_n_n : DotDims S131072x100 S100x100 S131072x100 where
  lhsContracting := [1]
  rhsContracting := [0]
  lhsNonContracting := [0]
  rhsNonContracting := [1]
  lhsBatch := []
  rhsBatch := []
  wf := dot_S131072x100_S100x100_S131072x100_1_0_0_1_n_n_wf
def dot_S131072x100_S100x384_S131072x384_1_0_0_1_n_n : DotDims S131072x100 S100x384 S131072x384 where
  lhsContracting := [1]
  rhsContracting := [0]
  lhsNonContracting := [0]
  rhsNonContracting := [1]
  lhsBatch := []
  rhsBatch := []
  wf := dot_S131072x100_S100x384_S131072x384_1_0_0_1_n_n_wf
def dot_S131072x128_S128x384_S131072x384_1_0_0_1_n_n : DotDims S131072x128 S128x384 S131072x384 where
  lhsContracting := [1]
  rhsContracting := [0]
  lhsNonContracting := [0]
  rhsNonContracting := [1]
  lhsBatch := []
  rhsBatch := []
  wf := dot_S131072x128_S128x384_S131072x384_1_0_0_1_n_n_wf
def scatter_S1000000x128_S131072x1_S131072x128_1_0_0_1 : ScatterDims S1000000x128 S131072x1 S131072x128 where
  updateWindowDims := [1]
  insertedWindowDims := [0]
  scatterDimsToOperandDims := [0]
  indexVectorDim := 1
  wf := scatter_S1000000x128_S131072x1_S131072x128_1_0_0_1_wf
def dot_S131072x256_S256x128_S131072x128_1_0_0_1_n_n : DotDims S131072x256 S256x128 S131072x128 where
  lhsContracting := [1]
  rhsContracting := [0]
  lhsNonContracting := [0]
  rhsNonContracting := [1]
  lhsBatch := []
  rhsBatch := []
  wf := dot_S131072x256_S256x128_S131072x128_1_0_0_1_n_n_wf

class Facts : Prop extends Facts₀ where

variable [Facts]
-- ==== Proof.LibDotSum.lean ====
/-
  A matrix product with ONE contracted axis, read at an index as a plain sum over that axis: for the host's
  product and for the matrix unit's product into a zero accumulator, both on the extended reals. The caller names the
  two operands' indices at contraction position k; the lemma re-indexes the sum by the axis's one coordinate.
-/
import Idealize.ShloMosaic.Lib.ValueIdx
import Idealize.ShloMosaic.Lib.KernelVsHost
import Idealize.ShloMosaic.PureOps.Ideal.Laws

namespace Idealize.ShloMosaic.DotSum

open Idealize.ShloMosaic Idealize.ShloMosaic.ValueIdx

/-- The host's product at an output index is the sum over the contracted axis of the operands' products, each read
    where the dimension numbers put it. -/
theorem dotGeneral_eq_sum {sl sr so : Shape} {φ₁ φ₂ : FTy} (d : DotDims sl sr so) (K : Nat) (hr : d.contr.rank = 1)
    (hs : d.contr.size ⟨0, by omega⟩ = K) (x : FVec Ideal sl φ₁) (w : FVec Ideal sr φ₂) (j : so.Idx)
    (li : Fin K → sl.Idx) (ri : Fin K → sr.Idx)
    (hl : ∀ k, d.lhsIdx j ((contrEquiv1 d K hr hs).symm k) = li k)
    (hw : ∀ k, d.rhsIdx j ((contrEquiv1 d K hr hs).symm k) = ri k) :
    Host.dotGeneral d none x w j = ∑ k : Fin K, x (li k) * w (ri k) := by
  show FloatOps.dotGeneral d none _ x w j = _
  rw [Ideal.dotGeneral_apply, ← Equiv.sum_comp (contrEquiv1 d K hr hs).symm]
  exact Finset.sum_congr rfl fun k _ => by rw [hl k, hw k]

/-- The matrix unit's product into a zero accumulator likewise (its operands may be of a narrower format: on the
    extended reals a format is no restriction). -/
theorem matmul_zero_eq_sum {sl sr so : Shape} {φ₁ φ₂ : FTy} (d : DotDims sl sr so) (K : Nat) (hr : d.contr.rank = 1)
    (hs : d.contr.size ⟨0, by omega⟩ = K) (x : FVec Ideal sl φ₁) (w : FVec Ideal sr φ₂) (j : so.Idx)
    (li : Fin K → sl.Idx) (ri : Fin K → sr.Idx)
    (hl : ∀ k, d.lhsIdx j ((contrEquiv1 d K hr hs).symm k) = li k)
    (hw : ∀ k, d.rhsIdx j ((contrEquiv1 d K hr hs).symm k) = ri k) :
    matmul d none x w (constant so .f32 0x00000000#32) j = ∑ k : Fin K, x (li k) * w (ri k) := by
  rw [matmul_zero_eq_dotGeneral]
  exact dotGeneral_eq_sum d K hr hs x w j li ri hl hw

end Idealize.ShloMosaic.DotSum
-- ==== Proof.LibPlainProduct.lean ====
/-
  The plain matrix product — an [M, K] matrix times a [K, N] matrix, the left operand's axis 1 contracted against the
  right operand's axis 0, no batch axis — read at an entry (p, q) as the sum over k of x(p, k) · w(k, q), on the extended
  reals: for the host's product and for the matrix unit's product into a zero accumulator. The operands' indices at
  contraction position k are computed once here, for every M, K, N, so a caller only names its entry.
-/
import proofs.«121303_j32770600468497_2_alg».proof.Proof.LibDotSum

namespace Idealize.ShloMosaic.PlainProduct

open Idealize.ShloMosaic Idealize.ShloMosaic.ValueIdx

variable (M K N : Nat)

theorem contr_rank : (DotDims.plain M K N).contr.rank = 1 := rfl

theorem contr_size : (DotDims.plain M K N).contr.size ⟨0, by rw [contr_rank]; omega⟩ = K := rfl

/-- The left operand is read at row p, column k. -/
theorem lhsIdx_eq (p : Fin M) (q : Fin N) (k : Fin K) :
    (DotDims.plain M K N).lhsIdx (ix2 p q)
      ((contrEquiv1 (DotDims.plain M K N) K (contr_rank M K N) (contr_size M K N)).symm k) = ix2 p k := by
  funext a
  apply Fin.ext
  match a with
  | ⟨0, _⟩ =>
    unfold DotDims.lhsIdx
    split
    · next hb => exact absurd hb List.not_mem_nil
    · split
      · rfl
      · next hn => exact absurd (List.mem_singleton.mpr rfl) hn
  | ⟨1, _⟩ =>
    exact ((DotDims.plain M K N).lhsIdx_val_of_single rfl (ix2 p q) _).trans
      (contrEquiv1_symm_val (DotDims.plain M K N) K (contr_rank M K N) (contr_size M K N) k)

/-- The right operand is read at row k, column q. -/
theorem rhsIdx_eq (p : Fin M) (q : Fin N) (k : Fin K) :
    (DotDims.plain M K N).rhsIdx (ix2 p q)
      ((contrEquiv1 (DotDims.plain M K N) K (contr_rank M K N) (contr_size M K N)).symm k) = ix2 k q := by
  funext a
  apply Fin.ext
  match a with
  | ⟨0, _⟩ =>
    exact ((DotDims.plain M K N).rhsIdx_val_of_single rfl (ix2 p q) _).trans
      (contrEquiv1_symm_val (DotDims.plain M K N) K (contr_rank M K N) (contr_size M K N) k)
  | ⟨1, _⟩ =>
    unfold DotDims.rhsIdx
    split
    · next hb => exact absurd hb List.not_mem_nil
    · split
      · rfl
      · next hn => exact absurd (List.mem_singleton.mpr rfl) hn

/-- The host's plain product at (p, q). -/
theorem dotGeneral_at {φ₁ φ₂ : FTy} (x : FVec Ideal ⟨2, ![M, K]⟩ φ₁) (w : FVec Ideal ⟨2, ![K, N]⟩ φ₂) (p : Fin M) (q : Fin N) :
    Host.dotGeneral (DotDims.plain M K N) none x w (ix2 p q) = ∑ k : Fin K, x (ix2 p k) * w (ix2 k q) :=
  DotSum.dotGeneral_eq_sum (DotDims.plain M K N) K (contr_rank M K N) (contr_size M K N) x w (ix2 p q)
    (fun k => ix2 p k) (fun k => ix2 k q) (lhsIdx_eq M K N p q) (rhsIdx_eq M K N p q)

/-- The matrix unit's plain product into zeros at (p, q). -/
theorem matmul_zero_at {φ₁ φ₂ : FTy} (x : FVec Ideal ⟨2, ![M, K]⟩ φ₁) (w : FVec Ideal ⟨2, ![K, N]⟩ φ₂) (p : Fin M) (q : Fin N) :
    matmul (DotDims.plain M K N) none x w (constant ⟨2, ![M, N]⟩ .f32 0x00000000#32) (ix2 p q)
      = ∑ k : Fin K, x (ix2 p k) * w (ix2 k q) :=
  DotSum.matmul_zero_eq_sum (DotDims.plain M K N) K (contr_rank M K N) (contr_size M K N) x w (ix2 p q)
    (fun k => ix2 p k) (fun k => ix2 k q) (lhsIdx_eq M K N p q) (rhsIdx_eq M K N p q)

end Idealize.ShloMosaic.PlainProduct
-- ==== Proof.LibRowBlock.lean ====
/-
  Rows t·R, …, t·R + R − 1 of a [B, n] array form an [R, n] array. A program that works on each row by itself —
  entrywise arithmetic, a bias row added to every row, a matrix product with a fixed right factor, a run of columns
  cut out, arrays joined along their columns — produces, from those R rows, the same R rows of what it produces from
  the whole array. This file states that fact one operation at a time, on the extended reals, with the whole-array
  side written in the host's operations and the R-row side in the vector unit's, so that a kernel working through an
  array R rows at a time can be compared with a program working on the whole array at once.
  "IsRows t x' x" says: x' is rows t·R … t·R + R − 1 of x. The float formats of the two sides are free (on the
  extended reals a change of format is the identity), so a cast on one side needs no lemma of its own.
-/
import proofs.«121303_j32770600468497_2_alg».proof.Proof.LibPlainProduct
import Idealize.ShloMosaic.Lib.Pipeline.Value
import Idealize.ShloMosaic.Lib.ValueLayout
import Idealize.ShloMosaic.Lib.IdealHost

noncomputable section

open scoped BigOperators

namespace Idealize.ShloMosaic.RowBlock

open Idealize.ShloMosaic Idealize.ShloMosaic.ValueIdx

variable {B R : ℕ}

/-- Row p of the t-th group of R rows, as a row of the whole array. -/
abbrev row (t : ℕ) (h : t * R + R ≤ B) (p : Fin R) : Fin B := ⟨t * R + p.val, by have := p.isLt; omega⟩

/-- x' is rows t·R … t·R + R − 1 of x. -/
def IsRows {n : ℕ} (t : ℕ) (h : t * R + R ≤ B) (x' : (⟨2, ![R, n]⟩ : Shape).Idx → EReal)
    (x : (⟨2, ![B, n]⟩ : Shape).Idx → EReal) : Prop :=
  ∀ (p : Fin R) (q : Fin n), x' (ix2 p q) = x (ix2 (row t h p) q)

variable {t : ℕ} {h : t * R + R ≤ B}

/-- The rows themselves, as an array. -/
def rows {n : ℕ} (t : ℕ) (h : t * R + R ≤ B) (x : (⟨2, ![B, n]⟩ : Shape).Idx → EReal) :
    (⟨2, ![R, n]⟩ : Shape).Idx → EReal :=
  fun j => x (ix2 (row t h ⟨(j 0).val, idx2_lt0 j⟩) ⟨(j 1).val, idx2_lt1 j⟩)

theorem isRows_rows {n : ℕ} (x : (⟨2, ![B, n]⟩ : Shape).Idx → EReal) : IsRows t h (rows t h x) x :=
  fun _ _ => rfl

theorem IsRows.eq_rows {n : ℕ} {x' : (⟨2, ![R, n]⟩ : Shape).Idx → EReal} {x : (⟨2, ![B, n]⟩ : Shape).Idx → EReal}
    (hx : IsRows t h x' x) : x' = rows t h x := by
  funext j
  obtain ⟨p, q, rfl⟩ : ∃ (p : Fin R) (q : Fin n), j = ix2 p q := ⟨j 0, j 1, eq_ix2 j⟩
  exact hx p q

/-- A cast of the R rows to their own shape changes nothing. -/
theorem IsRows.castSelf {n : ℕ} {x' : (⟨2, ![R, n]⟩ : Shape).Idx → EReal} {x : (⟨2, ![B, n]⟩ : Shape).Idx → EReal}
    (hc : (⟨2, ![R, n]⟩ : Shape).ShapeCasts ⟨2, ![R, n]⟩) (hx : IsRows t h x' x) :
    IsRows t h (shapeCast ⟨2, ![R, n]⟩ x' hc) x := by
  rw [shapeCast_self]; exact hx

/-- A weight matrix cast to its own shape still agrees entry by entry. -/
theorem castSelf_entries {K N : ℕ} {w' w : (⟨2, ![K, N]⟩ : Shape).Idx → EReal}
    (hc : (⟨2, ![K, N]⟩ : Shape).ShapeCasts ⟨2, ![K, N]⟩) (hw : ∀ (k : Fin K) (q : Fin N), w' (ix2 k q) = w (ix2 k q)) :
    ∀ (k : Fin K) (q : Fin N), shapeCast ⟨2, ![K, N]⟩ w' hc (ix2 k q) = w (ix2 k q) := by
  rw [shapeCast_self]; exact hw

/-! ## Entrywise operations -/

section Entrywise

variable {n : ℕ} {φ φ' : FTy}
variable {a' b' : FVec Ideal ⟨2, ![R, n]⟩ φ'} {a b : FVec Ideal ⟨2, ![B, n]⟩ φ}

theorem IsRows.addf (ha : IsRows t h a' a) (hb : IsRows t h b' b) : IsRows t h (addf a' b') (addf a b) :=
  fun p q => congrArg₂ (· + ·) (ha p q) (hb p q)

theorem IsRows.subf (ha : IsRows t h a' a) (hb : IsRows t h b' b) : IsRows t h (subf a' b') (subf a b) :=
  fun p q => congrArg₂ (· - ·) (ha p q) (hb p q)

theorem IsRows.mulf (ha : IsRows t h a' a) (hb : IsRows t h b' b) : IsRows t h (mulf a' b') (mulf a b) :=
  fun p q => congrArg₂ (· * ·) (ha p q) (hb p q)

theorem IsRows.maximumf (ha : IsRows t h a' a) (hb : IsRows t h b' b) : IsRows t h (maximumf a' b') (maximumf a b) :=
  fun p q => congrArg₂ max (ha p q) (hb p q)

/-- A change of float format on the R-row side only. -/
theorem IsRows.truncf {ψ : FTy} {x : (⟨2, ![B, n]⟩ : Shape).Idx → EReal} (hψ : ψ.bits < φ'.bits) (ha : IsRows t h a' x) :
    IsRows t h (truncf ψ a' hψ) x :=
  fun p q => ha p q

/-- The vector unit's cosine against the host's. -/
theorem IsRows.cos (ha : IsRows t h a' a) : IsRows t h (cos a') (Host.cos a) :=
  fun p q => congrArg Ideal.cos (ha p q)

/-- The vector unit's hyperbolic tangent against the host's. -/
theorem IsRows.tanh (ha : IsRows t h a' a) : IsRows t h (tanh a') (Host.tanh a) :=
  fun p q => congrArg Ideal.tanh (ha p q)

/-- The logistic function against 1 / (1 + exp (−x)) spelt out in the host's operations: on the extended reals the
    logistic function is that quotient by definition, its values at −∞ and +∞ included. -/
theorem IsRows.logistic {one₁ one₂ : FVec Ideal ⟨2, ![B, n]⟩ φ} (h₁ : ∀ i, one₁ i = 1) (h₂ : ∀ i, one₂ i = 1)
    (ha : IsRows t h a' a) :
    IsRows t h (logistic a') (Host.divf one₁ (Idealize.ShloMosaic.addf one₂ (Host.exp (Host.negf a)))) := by
  intro p q
  show Ideal.logistic (a' (ix2 p q)) = Ideal.div (one₁ _) (one₂ _ + Ideal.exp (-(a _)))
  rw [h₁, h₂, ha p q]
  rfl

end Entrywise

/-! ## Constants and broadcasts -/

section Broadcasts

variable {n : ℕ}

/-- A scalar constant spread over the whole array against the same scalar spread over R rows. -/
theorem IsRows.const {φ : FTy} (c : BitVec φ.bits) (hb : (⟨0, ![]⟩ : Shape).BroadcastsInDim ⟨2, ![B, n]⟩ ![]) :
    IsRows t h (broadcast ⟨2, ![R, n]⟩ (Scalar.ofBits (F := Ideal) φ c))
      (broadcastInDim ⟨2, ![B, n]⟩ ![] hb (constant (F := Ideal) ⟨0, ![]⟩ φ c)) := by
  intro p q
  exact (broadcastInDim_apply ![] hb (constant (F := Ideal) ⟨0, ![]⟩ φ c) (ix2 (row t h p) q) ix0 (fun a => a.elim0)).symm

/-- The value of such a constant at any entry. -/
theorem const_apply {φ : FTy} (c : BitVec φ.bits) (hb : (⟨0, ![]⟩ : Shape).BroadcastsInDim ⟨2, ![B, n]⟩ ![])
    (i : (⟨2, ![B, n]⟩ : Shape).Idx) :
    broadcastInDim ⟨2, ![B, n]⟩ ![] hb (constant (F := Ideal) ⟨0, ![]⟩ φ c) i = Ideal.ofBits φ c :=
  broadcastInDim_apply ![] hb (constant (F := Ideal) ⟨0, ![]⟩ φ c) i ix0 (fun a => a.elim0)

/-- One row [1, n] repeated down the whole array (the host's way) against the same row repeated down R rows (the
    vector unit's way). -/
theorem IsRows.rowBroadcast (w : (⟨2, ![1, n]⟩ : Shape).Idx → EReal)
    (hB : (⟨2, ![1, n]⟩ : Shape).BroadcastsInDim ⟨2, ![B, n]⟩ ![0, 1])
    (hR : (⟨2, ![1, n]⟩ : Shape).Broadcasts ⟨2, ![R, n]⟩) :
    IsRows t h (broadcastTo ⟨2, ![R, n]⟩ w hR) (broadcastInDim ⟨2, ![B, n]⟩ ![0, 1] hB w) := by
  intro p q
  rw [broadcastTo_1b_ab_apply w hR p q]
  refine (broadcastInDim_apply ![0, 1] hB w (ix2 (row t h p) q) (ix2 (0 : Fin 1) q) fun ax => ?_).symm
  match ax with
  | ⟨0, _⟩ => rfl
  | ⟨1, _⟩ =>
    show q.val = if n = 1 then 0 else q.val
    split
    · have := q.isLt; omega
    · rfl

/-- A vector [n] made a row [1, n]: by a cast (the vector unit's way) or by a broadcast along the new axis (the
    host's way), the same row. -/
theorem rowOfVector (v : (⟨1, ![n]⟩ : Shape).Idx → EReal)
    (hc : (⟨1, ![n]⟩ : Shape).ShapeCasts ⟨2, ![1, n]⟩)
    (hb : (⟨1, ![n]⟩ : Shape).BroadcastsInDim ⟨2, ![1, n]⟩ ![1]) :
    shapeCast ⟨2, ![1, n]⟩ v hc = broadcastInDim ⟨2, ![1, n]⟩ ![1] hb v := by
  funext j
  obtain ⟨u, q, rfl⟩ : ∃ (u : Fin 1) (q : Fin n), j = ix2 u q := ⟨j 0, j 1, eq_ix2 j⟩
  rw [shapeCast_a_1a_apply v hc u q]
  refine (broadcastInDim_apply ![1] hb v (ix2 u q) (ix1 q) fun ax => ?_).symm
  match ax with
  | ⟨0, _⟩ =>
    show q.val = if n = 1 then 0 else q.val
    split
    · have := q.isLt; omega
    · rfl

/-- A bias vector [n] added to every row: made a row and repeated down the whole array by two host broadcasts, against
    cast to a row and repeated down R rows by the vector unit. -/
theorem IsRows.bias (v : (⟨1, ![n]⟩ : Shape).Idx → EReal)
    (hc : (⟨1, ![n]⟩ : Shape).ShapeCasts ⟨2, ![1, n]⟩)
    (hb : (⟨1, ![n]⟩ : Shape).BroadcastsInDim ⟨2, ![1, n]⟩ ![1])
    (hB : (⟨2, ![1, n]⟩ : Shape).BroadcastsInDim ⟨2, ![B, n]⟩ ![0, 1])
    (hR : (⟨2, ![1, n]⟩ : Shape).Broadcasts ⟨2, ![R, n]⟩) :
    IsRows t h (broadcastTo ⟨2, ![R, n]⟩ (shapeCast ⟨2, ![1, n]⟩ v hc) hR)
      (broadcastInDim ⟨2, ![B, n]⟩ ![0, 1] hB (broadcastInDim ⟨2, ![1, n]⟩ ![1] hb v)) := by
  rw [rowOfVector v hc hb]
  exact IsRows.rowBroadcast _ hB hR

/-- One column [B, 1] repeated across n columns (the host's way) against its R rows repeated across n columns (the
    vector unit's way). -/
theorem IsRows.colBroadcast {y' : (⟨2, ![R, 1]⟩ : Shape).Idx → EReal} {y : (⟨2, ![B, 1]⟩ : Shape).Idx → EReal}
    (hy : IsRows t h y' y)
    (hB : (⟨2, ![B, 1]⟩ : Shape).BroadcastsInDim ⟨2, ![B, n]⟩ ![0, 1])
    (hR : (⟨2, ![R, 1]⟩ : Shape).Broadcasts ⟨2, ![R, n]⟩) :
    IsRows t h (broadcastTo ⟨2, ![R, n]⟩ y' hR) (broadcastInDim ⟨2, ![B, n]⟩ ![0, 1] hB y) := by
  intro p q
  have e1 : broadcastTo ⟨2, ![R, n]⟩ y' hR (ix2 p q) = y' (ix2 p (0 : Fin 1)) := by
    refine broadcastTo_apply y' hR (ix2 p q) (ix2 p (0 : Fin 1)) fun ax => ?_
    match ax with
    | ⟨0, _⟩ =>
      show p.val = if R = 1 then 0 else p.val
      split
      · have := p.isLt; omega
      · rfl
    | ⟨1, _⟩ => rfl
  have e2 : broadcastInDim ⟨2, ![B, n]⟩ ![0, 1] hB y (ix2 (row t h p) q) = y (ix2 (row t h p) (0 : Fin 1)) := by
    refine broadcastInDim_apply ![0, 1] hB y (ix2 (row t h p) q) (ix2 (row t h p) (0 : Fin 1)) fun ax => ?_
    match ax with
    | ⟨0, _⟩ =>
      show t * R + p.val = if B = 1 then 0 else t * R + p.val
      split
      · have := p.isLt; omega
      · rfl
    | ⟨1, _⟩ => rfl
  rw [e1, e2]
  exact hy p 0

end Broadcasts

/-! ## A matrix product with a fixed right factor -/

/-- The plain product [B, K] × [K, N] on the host against the matrix unit's product of the R rows with the same right
    factor into a zero accumulator: entry (p, q) of either is the sum over k of (row's entry k) · w(k, q). -/
theorem IsRows.dot {K N : ℕ} {φ₁ φ₂ φ₁' φ₂' : FTy}
    {l' : FVec Ideal ⟨2, ![R, K]⟩ φ₁'} {l : FVec Ideal ⟨2, ![B, K]⟩ φ₁}
    {w' : FVec Ideal ⟨2, ![K, N]⟩ φ₂'} {w : FVec Ideal ⟨2, ![K, N]⟩ φ₂}
    (hl : IsRows t h l' l) (hw : ∀ (k : Fin K) (q : Fin N), w' (ix2 k q) = w (ix2 k q)) :
    IsRows t h (matmul (DotDims.plain R K N) none l' w' (constant ⟨2, ![R, N]⟩ .f32 0x00000000#32))
      (Host.dotGeneral (DotDims.plain B K N) none l w) := by
  intro p q
  rw [PlainProduct.matmul_zero_at R K N l' w' p q, PlainProduct.dotGeneral_at B K N l w (row t h p) q]
  exact Finset.sum_congr rfl fun k _ => congrArg₂ (· * ·) (hl p k) (hw k q)

/-! ## Columns cut out and arrays joined along their columns -/

/-- Columns o … o + m − 1 cut out of the whole array against the same columns cut out of the R rows. -/
theorem IsRows.slice {n m : ℕ} (o : ℕ) {x' : (⟨2, ![R, n]⟩ : Shape).Idx → EReal} {x : (⟨2, ![B, n]⟩ : Shape).Idx → EReal}
    (hx : IsRows t h x' x)
    (hB : (⟨2, ![B, n]⟩ : Shape).Slices ![0, o] ⟨2, ![B, m]⟩) (hR : (⟨2, ![R, n]⟩ : Shape).Slices ![0, o] ⟨2, ![R, m]⟩)
    (hom : o + m ≤ n) :
    IsRows t h (extractStridedSlice ⟨2, ![R, m]⟩ ![0, o] x' hR) (extractStridedSlice ⟨2, ![B, m]⟩ ![0, o] x hB) := by
  intro p q
  have hk : o + q.val < n := by have := q.isLt; omega
  rw [slice2_axis1_apply o x' hR p q ⟨o + q.val, hk⟩ rfl,
    slice2_axis1_apply o x hB (row t h p) q ⟨o + q.val, hk⟩ rfl]
  exact hx p ⟨o + q.val, hk⟩

/-! ### Arrays of rows joined along their columns, read at an entry -/

section Joined

variable {α : Type}

private theorem off_axis {a m N : ℕ} (r : Fin a) (c : Fin N) (c' : Fin m)
    (b : Fin (⟨2, ![a, m]⟩ : Shape).rank) (hb : b.cast (rfl : (⟨2, ![a, m]⟩ : Shape).rank = (⟨2, ![a, N]⟩ : Shape).rank) ≠ 1) :
    ((ix2 r c' : (⟨2, ![a, m]⟩ : Shape).Idx) b).val = ((ix2 r c : (⟨2, ![a, N]⟩ : Shape).Idx) (b.cast rfl)).val := by
  match b with
  | ⟨0, _⟩ => rfl
  | ⟨1, _⟩ => exact absurd rfl hb

variable {a n₁ n₂ n₃ n₄ N : ℕ}

/-- Four arrays joined: a column in the first stretch. -/
theorem joined4_first (x₁ : (⟨2, ![a, n₁]⟩ : Shape).Idx → α) (x₂ : (⟨2, ![a, n₂]⟩ : Shape).Idx → α)
    (x₃ : (⟨2, ![a, n₃]⟩ : Shape).Idx → α) (x₄ : (⟨2, ![a, n₄]⟩ : Shape).Idx → α)
    (hc : Shape.Concatenates [⟨2, ![a, n₁]⟩, ⟨2, ![a, n₂]⟩, ⟨2, ![a, n₃]⟩, ⟨2, ![a, n₄]⟩] ⟨2, ![a, N]⟩ 1)
    (r : Fin a) (c : Fin N) (c' : Fin n₁) (e : c'.val = c.val) :
    concatenate ⟨2, ![a, N]⟩ 1 [⟨⟨2, ![a, n₁]⟩, x₁⟩, ⟨⟨2, ![a, n₂]⟩, x₂⟩, ⟨⟨2, ![a, n₃]⟩, x₃⟩, ⟨⟨2, ![a, n₄]⟩, x₄⟩] hc (ix2 r c)
      = x₁ (ix2 r c') :=
  concatenate_apply_piece 1 [⟨⟨2, ![a, n₁]⟩, x₁⟩, ⟨⟨2, ![a, n₂]⟩, x₂⟩, ⟨⟨2, ![a, n₃]⟩, x₃⟩, ⟨⟨2, ![a, n₄]⟩, x₄⟩] hc (ix2 r c)
    0 (by show (0 : ℕ) < 4; omega) ⟨2, ![a, n₁]⟩ x₁ rfl rfl 0 rfl (ix2 r c') (off_axis r c c')
    (by show 0 + c'.val = c.val; omega)

/-- Four arrays joined: a column in the second stretch. -/
theorem joined4_second (x₁ : (⟨2, ![a, n₁]⟩ : Shape).Idx → α) (x₂ : (⟨2, ![a, n₂]⟩ : Shape).Idx → α)
    (x₃ : (⟨2, ![a, n₃]⟩ : Shape).Idx → α) (x₄ : (⟨2, ![a, n₄]⟩ : Shape).Idx → α)
    (hc : Shape.Concatenates [⟨2, ![a, n₁]⟩, ⟨2, ![a, n₂]⟩, ⟨2, ![a, n₃]⟩, ⟨2, ![a, n₄]⟩] ⟨2, ![a, N]⟩ 1)
    (r : Fin a) (c : Fin N) (c' : Fin n₂) (e : n₁ + c'.val = c.val) :
    concatenate ⟨2, ![a, N]⟩ 1 [⟨⟨2, ![a, n₁]⟩, x₁⟩, ⟨⟨2, ![a, n₂]⟩, x₂⟩, ⟨⟨2, ![a, n₃]⟩, x₃⟩, ⟨⟨2, ![a, n₄]⟩, x₄⟩] hc (ix2 r c)
      = x₂ (ix2 r c') :=
  concatenate_apply_piece 1 [⟨⟨2, ![a, n₁]⟩, x₁⟩, ⟨⟨2, ![a, n₂]⟩, x₂⟩, ⟨⟨2, ![a, n₃]⟩, x₃⟩, ⟨⟨2, ![a, n₄]⟩, x₄⟩] hc (ix2 r c)
    1 (by show (1 : ℕ) < 4; omega) ⟨2, ![a, n₂]⟩ x₂ rfl rfl (n₁ + 0) rfl (ix2 r c') (off_axis r c c')
    (by show n₁ + 0 + c'.val = c.val; omega)

/-- Four arrays joined: a column in the third stretch. -/
theorem joined4_third (x₁ : (⟨2, ![a, n₁]⟩ : Shape).Idx → α) (x₂ : (⟨2, ![a, n₂]⟩ : Shape).Idx → α)
    (x₃ : (⟨2, ![a, n₃]⟩ : Shape).Idx → α) (x₄ : (⟨2, ![a, n₄]⟩ : Shape).Idx → α)
    (hc : Shape.Concatenates [⟨2, ![a, n₁]⟩, ⟨2, ![a, n₂]⟩, ⟨2, ![a, n₃]⟩, ⟨2, ![a, n₄]⟩] ⟨2, ![a, N]⟩ 1)
    (r : Fin a) (c : Fin N) (c' : Fin n₃) (e : n₁ + n₂ + c'.val = c.val) :
    concatenate ⟨2, ![a, N]⟩ 1 [⟨⟨2, ![a, n₁]⟩, x₁⟩, ⟨⟨2, ![a, n₂]⟩, x₂⟩, ⟨⟨2, ![a, n₃]⟩, x₃⟩, ⟨⟨2, ![a, n₄]⟩, x₄⟩] hc (ix2 r c)
      = x₃ (ix2 r c') :=
  concatenate_apply_piece 1 [⟨⟨2, ![a, n₁]⟩, x₁⟩, ⟨⟨2, ![a, n₂]⟩, x₂⟩, ⟨⟨2, ![a, n₃]⟩, x₃⟩, ⟨⟨2, ![a, n₄]⟩, x₄⟩] hc (ix2 r c)
    2 (by show (2 : ℕ) < 4; omega) ⟨2, ![a, n₃]⟩ x₃ rfl rfl (n₁ + (n₂ + 0)) rfl (ix2 r c') (off_axis r c c')
    (by show n₁ + (n₂ + 0) + c'.val = c.val; omega)

/-- Four arrays joined: a column in the fourth stretch. -/
theorem joined4_fourth (x₁ : (⟨2, ![a, n₁]⟩ : Shape).Idx → α) (x₂ : (⟨2, ![a, n₂]⟩ : Shape).Idx → α)
    (x₃ : (⟨2, ![a, n₃]⟩ : Shape).Idx → α) (x₄ : (⟨2, ![a, n₄]⟩ : Shape).Idx → α)
    (hc : Shape.Concatenates [⟨2, ![a, n₁]⟩, ⟨2, ![a, n₂]⟩, ⟨2, ![a, n₃]⟩, ⟨2, ![a, n₄]⟩] ⟨2, ![a, N]⟩ 1)
    (r : Fin a) (c : Fin N) (c' : Fin n₄) (e : n₁ + n₂ + n₃ + c'.val = c.val) :
    concatenate ⟨2, ![a, N]⟩ 1 [⟨⟨2, ![a, n₁]⟩, x₁⟩, ⟨⟨2, ![a, n₂]⟩, x₂⟩, ⟨⟨2, ![a, n₃]⟩, x₃⟩, ⟨⟨2, ![a, n₄]⟩, x₄⟩] hc (ix2 r c)
      = x₄ (ix2 r c') :=
  concatenate_apply_piece 1 [⟨⟨2, ![a, n₁]⟩, x₁⟩, ⟨⟨2, ![a, n₂]⟩, x₂⟩, ⟨⟨2, ![a, n₃]⟩, x₃⟩, ⟨⟨2, ![a, n₄]⟩, x₄⟩] hc (ix2 r c)
    3 (by show (3 : ℕ) < 4; omega) ⟨2, ![a, n₄]⟩ x₄ rfl rfl (n₁ + (n₂ + (n₃ + 0))) rfl (ix2 r c') (off_axis r c c')
    (by show n₁ + (n₂ + (n₃ + 0)) + c'.val = c.val; omega)

/-- Two arrays joined: a column in the first stretch. -/
theorem joined2_first (x₁ : (⟨2, ![a, n₁]⟩ : Shape).Idx → α) (x₂ : (⟨2, ![a, n₂]⟩ : Shape).Idx → α)
    (hc : Shape.Concatenates [⟨2, ![a, n₁]⟩, ⟨2, ![a, n₂]⟩] ⟨2, ![a, N]⟩ 1)
    (r : Fin a) (c : Fin N) (c' : Fin n₁) (e : c'.val = c.val) :
    concatenate ⟨2, ![a, N]⟩ 1 [⟨⟨2, ![a, n₁]⟩, x₁⟩, ⟨⟨2, ![a, n₂]⟩, x₂⟩] hc (ix2 r c) = x₁ (ix2 r c') :=
  concatenate_apply_piece 1 [⟨⟨2, ![a, n₁]⟩, x₁⟩, ⟨⟨2, ![a, n₂]⟩, x₂⟩] hc (ix2 r c)
    0 (by show (0 : ℕ) < 2; omega) ⟨2, ![a, n₁]⟩ x₁ rfl rfl 0 rfl (ix2 r c') (off_axis r c c')
    (by show 0 + c'.val = c.val; omega)

/-- Two arrays joined: a column in the second stretch. -/
theorem joined2_second (x₁ : (⟨2, ![a, n₁]⟩ : Shape).Idx → α) (x₂ : (⟨2, ![a, n₂]⟩ : Shape).Idx → α)
    (hc : Shape.Concatenates [⟨2, ![a, n₁]⟩, ⟨2, ![a, n₂]⟩] ⟨2, ![a, N]⟩ 1)
    (r : Fin a) (c : Fin N) (c' : Fin n₂) (e : n₁ + c'.val = c.val) :
    concatenate ⟨2, ![a, N]⟩ 1 [⟨⟨2, ![a, n₁]⟩, x₁⟩, ⟨⟨2, ![a, n₂]⟩, x₂⟩] hc (ix2 r c) = x₂ (ix2 r c') :=
  concatenate_apply_piece 1 [⟨⟨2, ![a, n₁]⟩, x₁⟩, ⟨⟨2, ![a, n₂]⟩, x₂⟩] hc (ix2 r c)
    1 (by show (1 : ℕ) < 2; omega) ⟨2, ![a, n₂]⟩ x₂ rfl rfl (n₁ + 0) rfl (ix2 r c') (off_axis r c c')
    (by show n₁ + 0 + c'.val = c.val; omega)

end Joined

/-- Four arrays joined along their columns: the R rows of the joined array are the join of the R rows of each. -/
theorem IsRows.joined4 {n₁ n₂ n₃ n₄ N : ℕ}
    {x₁' : (⟨2, ![R, n₁]⟩ : Shape).Idx → EReal} {x₁ : (⟨2, ![B, n₁]⟩ : Shape).Idx → EReal}
    {x₂' : (⟨2, ![R, n₂]⟩ : Shape).Idx → EReal} {x₂ : (⟨2, ![B, n₂]⟩ : Shape).Idx → EReal}
    {x₃' : (⟨2, ![R, n₃]⟩ : Shape).Idx → EReal} {x₃ : (⟨2, ![B, n₃]⟩ : Shape).Idx → EReal}
    {x₄' : (⟨2, ![R, n₄]⟩ : Shape).Idx → EReal} {x₄ : (⟨2, ![B, n₄]⟩ : Shape).Idx → EReal}
    (h₁ : IsRows t h x₁' x₁) (h₂ : IsRows t h x₂' x₂) (h₃ : IsRows t h x₃' x₃) (h₄ : IsRows t h x₄' x₄)
    (hN : n₁ + n₂ + n₃ + n₄ = N)
    (hR : Shape.Concatenates [⟨2, ![R, n₁]⟩, ⟨2, ![R, n₂]⟩, ⟨2, ![R, n₃]⟩, ⟨2, ![R, n₄]⟩] ⟨2, ![R, N]⟩ 1)
    (hB : Shape.Concatenates [⟨2, ![B, n₁]⟩, ⟨2, ![B, n₂]⟩, ⟨2, ![B, n₃]⟩, ⟨2, ![B, n₄]⟩] ⟨2, ![B, N]⟩ 1) :
    IsRows t h
      (concatenate ⟨2, ![R, N]⟩ 1 [⟨⟨2, ![R, n₁]⟩, x₁'⟩, ⟨⟨2, ![R, n₂]⟩, x₂'⟩, ⟨⟨2, ![R, n₃]⟩, x₃'⟩, ⟨⟨2, ![R, n₄]⟩, x₄'⟩] hR)
      (concatenate ⟨2, ![B, N]⟩ 1 [⟨⟨2, ![B, n₁]⟩, x₁⟩, ⟨⟨2, ![B, n₂]⟩, x₂⟩, ⟨⟨2, ![B, n₃]⟩, x₃⟩, ⟨⟨2, ![B, n₄]⟩, x₄⟩] hB) := by
  intro p q
  have hq := q.isLt
  by_cases c₁ : q.val < n₁
  · rw [joined4_first x₁' x₂' x₃' x₄' hR p q ⟨q.val, c₁⟩ rfl, joined4_first x₁ x₂ x₃ x₄ hB (row t h p) q ⟨q.val, c₁⟩ rfl]
    exact h₁ p _
  · by_cases c₂ : q.val < n₁ + n₂
    · have k : q.val - n₁ < n₂ := by omega
      rw [joined4_second x₁' x₂' x₃' x₄' hR p q ⟨q.val - n₁, k⟩ (by show n₁ + (q.val - n₁) = q.val; omega),
        joined4_second x₁ x₂ x₃ x₄ hB (row t h p) q ⟨q.val - n₁, k⟩ (by show n₁ + (q.val - n₁) = q.val; omega)]
      exact h₂ p _
    · by_cases c₃ : q.val < n₁ + n₂ + n₃
      · have k : q.val - (n₁ + n₂) < n₃ := by omega
        rw [joined4_third x₁' x₂' x₃' x₄' hR p q ⟨q.val - (n₁ + n₂), k⟩ (by show n₁ + n₂ + (q.val - (n₁ + n₂)) = q.val; omega),
          joined4_third x₁ x₂ x₃ x₄ hB (row t h p) q ⟨q.val - (n₁ + n₂), k⟩ (by show n₁ + n₂ + (q.val - (n₁ + n₂)) = q.val; omega)]
        exact h₃ p _
      · have k : q.val - (n₁ + n₂ + n₃) < n₄ := by omega
        rw [joined4_fourth x₁' x₂' x₃' x₄' hR p q ⟨q.val - (n₁ + n₂ + n₃), k⟩ (by show n₁ + n₂ + n₃ + (q.val - (n₁ + n₂ + n₃)) = q.val; omega),
          joined4_fourth x₁ x₂ x₃ x₄ hB (row t h p) q ⟨q.val - (n₁ + n₂ + n₃), k⟩ (by show n₁ + n₂ + n₃ + (q.val - (n₁ + n₂ + n₃)) = q.val; omega)]
        exact h₄ p _

/-- Two arrays joined along their columns: the R rows of the joined array are the join of the R rows of each. -/
theorem IsRows.joined2 {n₁ n₂ N : ℕ}
    {x₁' : (⟨2, ![R, n₁]⟩ : Shape).Idx → EReal} {x₁ : (⟨2, ![B, n₁]⟩ : Shape).Idx → EReal}
    {x₂' : (⟨2, ![R, n₂]⟩ : Shape).Idx → EReal} {x₂ : (⟨2, ![B, n₂]⟩ : Shape).Idx → EReal}
    (h₁ : IsRows t h x₁' x₁) (h₂ : IsRows t h x₂' x₂) (hN : n₁ + n₂ = N)
    (hR : Shape.Concatenates [⟨2, ![R, n₁]⟩, ⟨2, ![R, n₂]⟩] ⟨2, ![R, N]⟩ 1)
    (hB : Shape.Concatenates [⟨2, ![B, n₁]⟩, ⟨2, ![B, n₂]⟩] ⟨2, ![B, N]⟩ 1) :
    IsRows t h (concatenate ⟨2, ![R, N]⟩ 1 [⟨⟨2, ![R, n₁]⟩, x₁'⟩, ⟨⟨2, ![R, n₂]⟩, x₂'⟩] hR)
      (concatenate ⟨2, ![B, N]⟩ 1 [⟨⟨2, ![B, n₁]⟩, x₁⟩, ⟨⟨2, ![B, n₂]⟩, x₂⟩] hB) := by
  intro p q
  have hq := q.isLt
  by_cases c₁ : q.val < n₁
  · rw [joined2_first x₁' x₂' hR p q ⟨q.val, c₁⟩ rfl, joined2_first x₁ x₂ hB (row t h p) q ⟨q.val, c₁⟩ rfl]
    exact h₁ p _
  · have k : q.val - n₁ < n₂ := by omega
    rw [joined2_second x₁' x₂' hR p q ⟨q.val - n₁, k⟩ (by show n₁ + (q.val - n₁) = q.val; omega),
      joined2_second x₁ x₂ hB (row t h p) q ⟨q.val - n₁, k⟩ (by show n₁ + (q.val - n₁) = q.val; omega)]
    exact h₂ p _

/-! ## Two arrays as the two slabs of a rank-3 array -/

section Slabs

variable {α : Type} {a n : ℕ}

/-- Two [a, n] arrays as the two slabs of a [2, a, n] array. -/
def slabs (f g : (⟨2, ![a, n]⟩ : Shape).Idx → α) : (⟨3, ![2, a, n]⟩ : Shape).Idx → α :=
  fun y => if (y 0).val = 0 then f (ix2 (⟨(y 1).val, (y 1).isLt⟩ : Fin a) (⟨(y 2).val, (y 2).isLt⟩ : Fin n))
    else g (ix2 (⟨(y 1).val, (y 1).isLt⟩ : Fin a) (⟨(y 2).val, (y 2).isLt⟩ : Fin n))

theorem slabs_zero (f g : (⟨2, ![a, n]⟩ : Shape).Idx → α) (y : (⟨3, ![2, a, n]⟩ : Shape).Idx)
    (p : Fin a) (q : Fin n) (e0 : (y 0).val = 0) (e1 : (y 1).val = p.val) (e2 : (y 2).val = q.val) :
    slabs f g y = f (ix2 p q) := by
  unfold slabs
  rw [if_pos e0]
  exact congrArg f (funext fun b => match b with | ⟨0, _⟩ => Fin.ext e1 | ⟨1, _⟩ => Fin.ext e2)

theorem slabs_one (f g : (⟨2, ![a, n]⟩ : Shape).Idx → α) (y : (⟨3, ![2, a, n]⟩ : Shape).Idx)
    (p : Fin a) (q : Fin n) (e0 : (y 0).val = 1) (e1 : (y 1).val = p.val) (e2 : (y 2).val = q.val) :
    slabs f g y = g (ix2 p q) := by
  unfold slabs
  rw [if_neg (by omega)]
  exact congrArg g (funext fun b => match b with | ⟨0, _⟩ => Fin.ext e1 | ⟨1, _⟩ => Fin.ext e2)

/-- Flattening the two slabs into one [2·a, n] array is the first array with the second joined below it: row r of the
    flattened array is row r of slab 0 for r < a and row r − a of slab 1 otherwise, in either reading. -/
theorem flatten_slabs {a2 : ℕ} (ha2 : a2 = a + a) (f g : (⟨2, ![a, n]⟩ : Shape).Idx → α)
    (hc : (⟨3, ![2, a, n]⟩ : Shape).ShapeCasts ⟨2, ![a2, n]⟩)
    (hj : Shape.Concatenates [⟨2, ![a, n]⟩, ⟨2, ![a, n]⟩] ⟨2, ![a2, n]⟩ 0) :
    shapeCast ⟨2, ![a2, n]⟩ (slabs f g) hc = concatenate ⟨2, ![a2, n]⟩ 0 [⟨⟨2, ![a, n]⟩, f⟩, ⟨⟨2, ![a, n]⟩, g⟩] hj := by
  subst ha2
  funext j
  obtain ⟨r, k, rfl⟩ : ∃ (r : Fin (a + a)) (k : Fin n), j = ix2 r k := ⟨j 0, j 1, eq_ix2 j⟩
  have off1 : ∀ (r' : Fin a) (b : Fin (⟨2, ![a, n]⟩ : Shape).rank),
      b.cast (rfl : (⟨2, ![a, n]⟩ : Shape).rank = (⟨2, ![a + a, n]⟩ : Shape).rank) ≠ 0 →
      ((ix2 r' k : (⟨2, ![a, n]⟩ : Shape).Idx) b).val = ((ix2 r k : (⟨2, ![a + a, n]⟩ : Shape).Idx) (b.cast rfl)).val := by
    intro r' b hb
    match b with
    | ⟨0, _⟩ => exact absurd rfl hb
    | ⟨1, _⟩ => rfl
  by_cases hr : r.val < a
  · have e1 : shapeCast ⟨2, ![a + a, n]⟩ (slabs f g) hc (ix2 r k) = slabs f g (ix3 (0 : Fin 2) (⟨r.val, hr⟩ : Fin a) k) :=
      shapeCast_apply (slabs f g) hc _ _ (by
        rw [Shape.rowMajor_val_three, Shape.rowMajor_val_two]
        show (0 * a + r.val) * n + k.val = r.val * n + k.val
        rw [Nat.zero_mul, Nat.zero_add])
    rw [e1, slabs_zero f g _ ⟨r.val, hr⟩ k rfl rfl rfl]
    exact (concatenate_apply_piece 0 [⟨⟨2, ![a, n]⟩, f⟩, ⟨⟨2, ![a, n]⟩, g⟩] hj (ix2 r k)
      0 (by show (0 : ℕ) < 2; omega) ⟨2, ![a, n]⟩ f rfl rfl 0 rfl (ix2 ⟨r.val, hr⟩ k) (off1 _)
      (by show 0 + r.val = r.val; omega)).symm
  · have hr' : r.val - a < a := by have := r.isLt; omega
    have e1 : shapeCast ⟨2, ![a + a, n]⟩ (slabs f g) hc (ix2 r k) = slabs f g (ix3 (1 : Fin 2) (⟨r.val - a, hr'⟩ : Fin a) k) :=
      shapeCast_apply (slabs f g) hc _ _ (by
        rw [Shape.rowMajor_val_three, Shape.rowMajor_val_two]
        show (1 * a + (r.val - a)) * n + k.val = r.val * n + k.val
        have : 1 * a + (r.val - a) = r.val := by omega
        rw [this])
    rw [e1, slabs_one f g _ ⟨r.val - a, hr'⟩ k rfl rfl rfl]
    exact (concatenate_apply_piece 0 [⟨⟨2, ![a, n]⟩, f⟩, ⟨⟨2, ![a, n]⟩, g⟩] hj (ix2 r k)
      1 (by show (1 : ℕ) < 2; omega) ⟨2, ![a, n]⟩ g rfl rfl (a + 0) rfl (ix2 ⟨r.val - a, hr'⟩ k) (off1 _)
      (by show a + 0 + (r.val - a) = r.val; omega)).symm

end Slabs

end Idealize.ShloMosaic.RowBlock

end
-- ==== Proof.Stages.lean ====
/-
  The kernel's body on 1024 rows against the reference's stages on all 131072 rows.
  Every operation of the two programs acts on each row by itself: the time encoding cos(t·w + b), the joined input
  [own memory | other memory | edge features | time encoding], the two-layer message (matrix product, bias, maximum
  with 0, matrix product, bias), the recurrent cell (two matrix products with biases, three runs of 128 columns cut
  from each, two logistic gates, a hyperbolic tangent, the convex combination with the previous memory), and the
  output layer on [updated memory | node embedding]. So what the body computes from rows t·1024 … t·1024 + 1023 of its
  row inputs and from the whole weight arrays is rows t·1024 … t·1024 + 1023 of what the reference computes at the
  corresponding stage. The reference spells the logistic function as 1 / (1 + exp(−x)); on the extended reals that
  quotient is the logistic function's definition. Nothing here needs the inputs to be finite.
-/
import proofs.«121303_j32770600468497_2_alg».proof.Proof.Gen.KernelIdeal.Skeleton
import proofs.«121303_j32770600468497_2_alg».proof.Proof.Gen.ReferenceIdeal.Read
import proofs.«121303_j32770600468497_2_alg».proof.Proof.LibRowBlock

set_option maxRecDepth 16384

noncomputable section

namespace Cert.Stages

open Idealize.ShloMosaic Idealize.ShloMosaic.ValueIdx Idealize.ShloMosaic.RowBlock
open Cert.KernelIdeal.Gen Cert.ReferenceIdeal.Read

/-- Group t of 1024 rows lies inside the 131072 rows. -/
theorem hrow (t : Fin 128) : t.val * 1024 + 1024 ≤ 131072 := by have := t.isLt; omega

/-- "x' is rows t·1024 … t·1024 + 1023 of x", for arrays of n columns. -/
abbrev Rows {n : ℕ} (t : Fin 128) (x' : (⟨2, ![1024, n]⟩ : Shape).Idx → EReal) (x : (⟨2, ![131072, n]⟩ : Shape).Idx → EReal) : Prop :=
  IsRows (R := 1024) (B := 131072) t.val (hrow t) x' x

/-- The reference's constant-one arrays hold 1 everywhere. -/
theorem one_apply {n : ℕ} (hb : (⟨0, ![]⟩ : Shape).BroadcastsInDim ⟨2, ![131072, n]⟩ ![]) (i : (⟨2, ![131072, n]⟩ : Shape).Idx) :
    broadcastInDim ⟨2, ![131072, n]⟩ ![] hb (constant (F := Ideal) ⟨0, ![]⟩ .f32 0x3F800000#32) i = 1 :=
  (const_apply _ hb i).trans Ideal.ofBits_one_f32

variable (t : Fin 128)

/-! ## The time encoding -/

/-- cos(t·w + b): the kernel's, from 1024 timestamps as a column and the two rows w, b, against the reference's. -/
theorem time_rows (x3 : Cert.ReferenceIdeal.S131072.Idx → EReal) (x5 x6 : Cert.ReferenceIdeal.S100.Idx → EReal)
    {ts' : Vec Ideal Cert.KernelIdeal.S1024x1 .f32} (hts : Rows t ts' (val_main_v14 (F := Ideal) x3)) :
    Rows t (k0_pay5 (F := Ideal) ts' (val_main_v15 (F := Ideal) x5) (val_main_v19 (F := Ideal) x6))
      (val_main_v22 (F := Ideal) x3 x5 x6) := by
  unfold k0_pay5
  simp only [shapeCast_self]
  exact IsRows.cos (IsRows.addf (IsRows.mulf (IsRows.colBroadcast hts _ _) (IsRows.rowBroadcast _ _ _)) (IsRows.rowBroadcast _ _ _))

/-! ## The joined inputs and the messages -/

variable (x0 x1 x2 : (⟨Cert.ReferenceIdeal.S131072x128, .f32⟩ : BufTy).Contents (Elt Ideal)) (x3 : (⟨Cert.ReferenceIdeal.S131072, .f32⟩ : BufTy).Contents (Elt Ideal)) (x4 : (⟨Cert.ReferenceIdeal.S1000000x128, .f32⟩ : BufTy).Contents (Elt Ideal))
  (x5 x6 : (⟨Cert.ReferenceIdeal.S100, .f32⟩ : BufTy).Contents (Elt Ideal)) (x7 : (⟨Cert.ReferenceIdeal.S484x100, .f32⟩ : BufTy).Contents (Elt Ideal)) (x8 : (⟨Cert.ReferenceIdeal.S100, .f32⟩ : BufTy).Contents (Elt Ideal)) (x9 : (⟨Cert.ReferenceIdeal.S100x100, .f32⟩ : BufTy).Contents (Elt Ideal)) (x10 : (⟨Cert.ReferenceIdeal.S100, .f32⟩ : BufTy).Contents (Elt Ideal))
  (x11 : (⟨Cert.ReferenceIdeal.S384x100, .f32⟩ : BufTy).Contents (Elt Ideal)) (x12 : (⟨Cert.ReferenceIdeal.S384, .f32⟩ : BufTy).Contents (Elt Ideal)) (x13 : (⟨Cert.ReferenceIdeal.S384x128, .f32⟩ : BufTy).Contents (Elt Ideal)) (x14 : (⟨Cert.ReferenceIdeal.S384, .f32⟩ : BufTy).Contents (Elt Ideal))
  (x15 : (⟨Cert.ReferenceIdeal.S256x128, .f32⟩ : BufTy).Contents (Elt Ideal)) (x16 : (⟨Cert.ReferenceIdeal.S128, .f32⟩ : BufTy).Contents (Elt Ideal)) (x17 x18 : (⟨Cert.ReferenceIdeal.S131072, .i32⟩ : BufTy).Contents (Elt Ideal))

/-- [destination memory | source memory | edge features | time encoding], the input of the message sent to the source. -/
theorem d2s_in_rows {b0 b1 b2 : Vec Ideal Cert.KernelIdeal.S1024x128 .f32} {b3 : Vec Ideal Cert.KernelIdeal.S1024x1 .f32}
    (h0 : Rows t b0 (val_main_v6 (F := Ideal) x4 x17)) (h1 : Rows t b1 (val_main_v13 (F := Ideal) x4 x18))
    (h2 : Rows t b2 x2) (h3 : Rows t b3 (val_main_v14 (F := Ideal) x3)) :
    Rows t (k0_pay9 (F := Ideal) b0 b1 b2 b3 (val_main_v15 (F := Ideal) x5) (val_main_v19 (F := Ideal) x6))
      (val_main_v24 (F := Ideal) x2 x3 x4 x5 x6 x17 x18) := by
  unfold k0_pay9 k0_pay3 k0_pay4
  simp only [shapeCast_self]
  exact IsRows.truncf _ (IsRows.joined4 (IsRows.castSelf _ h1) (IsRows.castSelf _ h0) h2 (time_rows t x3 x5 x6 h3) (by norm_num : 128 + 128 + 128 + 100 = 484) _ _)

/-- The message sent to the destination: from [source memory | destination memory | edge features | time encoding],
    a matrix product, a bias, the maximum with 0, a second matrix product, a second bias. -/
theorem s2d_msg_rows {b0 b1 b2 : Vec Ideal Cert.KernelIdeal.S1024x128 .f32} {b3 : Vec Ideal Cert.KernelIdeal.S1024x1 .f32}
    {w1 : Vec Ideal Cert.KernelIdeal.S484x100 .bf16} {w2 : Vec Ideal Cert.KernelIdeal.S100x100 .bf16}
    (h0 : Rows t b0 (val_main_v6 (F := Ideal) x4 x17)) (h1 : Rows t b1 (val_main_v13 (F := Ideal) x4 x18))
    (h2 : Rows t b2 x2) (h3 : Rows t b3 (val_main_v14 (F := Ideal) x3))
    (hw1 : ∀ (k : Fin 484) (q : Fin 100), w1 (ix2 k q) = x7 (ix2 k q))
    (hw2 : ∀ (k : Fin 100) (q : Fin 100), w2 (ix2 k q) = x9 (ix2 k q)) :
    Rows t (k0_pay8 (F := Ideal) b0 b1 b2 b3 (val_main_v15 (F := Ideal) x5) (val_main_v19 (F := Ideal) x6) w1 x8 w2 x10)
      (val_main_v33 (F := Ideal) x2 x3 x4 x5 x6 x7 x8 x9 x10 x17 x18) := by
  unfold k0_pay8 k0_pay3 k0_pay4 k0_pay6 k0_pay7
  simp only [shapeCast_self]
  exact (IsRows.addf (IsRows.dot (IsRows.truncf _ (IsRows.maximumf (IsRows.addf (IsRows.dot (IsRows.truncf _ (IsRows.joined4 (IsRows.castSelf _ h0) (IsRows.castSelf _ h1) h2 (time_rows t x3 x5 x6 h3) (by norm_num : 128 + 128 + 128 + 100 = 484) _ _)) hw1) (IsRows.bias _ _ _ _ _)) (IsRows.const _ _))) hw2) (IsRows.bias _ _ _ _ _))

/-! ## The recurrent cell -/

/-- The source's updated memory: the message sent to the source through the recurrent cell, with the source's memory as
    the previous state. gi = message · Wihᵀ + bih, gh = memory · Whhᵀ + bhh; with r, z the logistic function of the sums
    of their first and second runs of 128 columns and n the hyperbolic tangent of gi's third run plus r times gh's third
    run, the new state is (1 − z) · n + z · memory. -/
theorem upd_src_rows {v1 : FVec Ideal Cert.KernelIdeal.S1024x128 .f32} {v37 : FVec Ideal Cert.KernelIdeal.S1024x484 .bf16}
    {w1 : FVec Ideal Cert.KernelIdeal.S484x100 .bf16} {w2 : FVec Ideal Cert.KernelIdeal.S100x100 .bf16}
    {v49 : Vec Ideal Cert.KernelIdeal.S100x384 .bf16} {v52 : Vec Ideal Cert.KernelIdeal.S128x384 .bf16}
    (hv1 : Rows t v1 (val_main_v6 (F := Ideal) x4 x17))
    (hv37 : Rows t v37 (val_main_v24 (F := Ideal) x2 x3 x4 x5 x6 x17 x18))
    (hw1 : ∀ (k : Fin 484) (q : Fin 100), w1 (ix2 k q) = x7 (ix2 k q))
    (hw2 : ∀ (k : Fin 100) (q : Fin 100), w2 (ix2 k q) = x9 (ix2 k q))
    (hwih : ∀ (k : Fin 100) (q : Fin 384), v49 (ix2 k q) = val_main_v43 (F := Ideal) x11 (ix2 k q))
    (hwhh : ∀ (k : Fin 128) (q : Fin 384), v52 (ix2 k q) = val_main_v48 (F := Ideal) x13 (ix2 k q)) :
    Rows t (k0_pay12 (F := Ideal) v1 w1 x8 w2 x10 v37 v49 x12 v52 x14)
      (val_main_v80 (F := Ideal) x2 x3 x4 x5 x6 x7 x8 x9 x10 x11 x12 x13 x14 x17 x18) := by
  unfold k0_pay12 k0_pay10 k0_pay11
  simp only [shapeCast_self]
  exact (IsRows.addf
    (IsRows.mulf (IsRows.subf (IsRows.const _ _) (IsRows.logistic (one_apply _) (one_apply _) (IsRows.addf (IsRows.slice 128 (IsRows.addf (IsRows.dot (IsRows.truncf _ (IsRows.addf (IsRows.dot (IsRows.truncf _ (IsRows.maximumf (IsRows.addf (IsRows.dot hv37 hw1) (IsRows.bias _ _ _ _ _)) (IsRows.const _ _))) hw2) (IsRows.bias _ _ _ _ _))) hwih) (IsRows.bias _ _ _ _ _)) _ _ (by omega)) (IsRows.slice 128 (IsRows.addf (IsRows.dot (IsRows.truncf _ hv1) hwhh) (IsRows.bias _ _ _ _ _)) _ _ (by omega)))))
      (IsRows.tanh (IsRows.addf (IsRows.slice 256 (IsRows.addf (IsRows.dot (IsRows.truncf _ (IsRows.addf (IsRows.dot (IsRows.truncf _ (IsRows.maximumf (IsRows.addf (IsRows.dot hv37 hw1) (IsRows.bias _ _ _ _ _)) (IsRows.const _ _))) hw2) (IsRows.bias _ _ _ _ _))) hwih) (IsRows.bias _ _ _ _ _)) _ _ (by omega)) (IsRows.mulf (IsRows.logistic (one_apply _) (one_apply _) (IsRows.addf (IsRows.slice 0 (IsRows.addf (IsRows.dot (IsRows.truncf _ (IsRows.addf (IsRows.dot (IsRows.truncf _ (IsRows.maximumf (IsRows.addf (IsRows.dot hv37 hw1) (IsRows.bias _ _ _ _ _)) (IsRows.const _ _))) hw2) (IsRows.bias _ _ _ _ _))) hwih) (IsRows.bias _ _ _ _ _)) _ _ (by omega)) (IsRows.slice 0 (IsRows.addf (IsRows.dot (IsRows.truncf _ hv1) hwhh) (IsRows.bias _ _ _ _ _)) _ _ (by omega)))) (IsRows.slice 256 (IsRows.addf (IsRows.dot (IsRows.truncf _ hv1) hwhh) (IsRows.bias _ _ _ _ _)) _ _ (by omega))))))
    (IsRows.mulf (IsRows.logistic (one_apply _) (one_apply _) (IsRows.addf (IsRows.slice 128 (IsRows.addf (IsRows.dot (IsRows.truncf _ (IsRows.addf (IsRows.dot (IsRows.truncf _ (IsRows.maximumf (IsRows.addf (IsRows.dot hv37 hw1) (IsRows.bias _ _ _ _ _)) (IsRows.const _ _))) hw2) (IsRows.bias _ _ _ _ _))) hwih) (IsRows.bias _ _ _ _ _)) _ _ (by omega)) (IsRows.slice 128 (IsRows.addf (IsRows.dot (IsRows.truncf _ hv1) hwhh) (IsRows.bias _ _ _ _ _)) _ _ (by omega)))) hv1))

/-- The message sent to the destination times Wihᵀ. -/
theorem gi_dst_rows {v36 : FVec Ideal Cert.KernelIdeal.S1024x100 .f32} {v49 : Vec Ideal Cert.KernelIdeal.S100x384 .bf16}
    (hv36 : Rows t v36 (val_main_v33 (F := Ideal) x2 x3 x4 x5 x6 x7 x8 x9 x10 x17 x18))
    (hwih : ∀ (k : Fin 100) (q : Fin 384), v49 (ix2 k q) = val_main_v81 (F := Ideal) x11 (ix2 k q)) :
    Rows t (k0_pay13 (F := Ideal) v36 v49) (val_main_v82 (F := Ideal) x2 x3 x4 x5 x6 x7 x8 x9 x10 x11 x17 x18) := by
  unfold k0_pay13 k0_pay10
  simp only [shapeCast_self]
  exact IsRows.dot (IsRows.truncf _ hv36) hwih

/-- The destination's updated memory: the same cell on the message sent to the destination and the destination's memory. -/
theorem upd_dst_rows {v3 : FVec Ideal Cert.KernelIdeal.S1024x128 .f32} {v53 : FVec Ideal Cert.KernelIdeal.S128x384 .bf16}
    {v84 : FVec Ideal Cert.KernelIdeal.S1024x384 .f32}
    (hv3 : Rows t v3 (val_main_v13 (F := Ideal) x4 x18))
    (hv84 : Rows t v84 (val_main_v82 (F := Ideal) x2 x3 x4 x5 x6 x7 x8 x9 x10 x11 x17 x18))
    (hwhh : ∀ (k : Fin 128) (q : Fin 384), v53 (ix2 k q) = val_main_v86 (F := Ideal) x13 (ix2 k q)) :
    Rows t (k0_pay14 (F := Ideal) v3 x12 v53 x14 v84)
      (val_main_v118 (F := Ideal) x2 x3 x4 x5 x6 x7 x8 x9 x10 x11 x12 x13 x14 x17 x18) := by
  unfold k0_pay14
  exact (IsRows.addf
    (IsRows.mulf (IsRows.subf (IsRows.const _ _) (IsRows.logistic (one_apply _) (one_apply _) (IsRows.addf (IsRows.slice 128 (IsRows.addf hv84 (IsRows.bias _ _ _ _ _)) _ _ (by omega)) (IsRows.slice 128 (IsRows.addf (IsRows.dot (IsRows.truncf _ hv3) hwhh) (IsRows.bias _ _ _ _ _)) _ _ (by omega)))))
      (IsRows.tanh (IsRows.addf (IsRows.slice 256 (IsRows.addf hv84 (IsRows.bias _ _ _ _ _)) _ _ (by omega)) (IsRows.mulf (IsRows.logistic (one_apply _) (one_apply _) (IsRows.addf (IsRows.slice 0 (IsRows.addf hv84 (IsRows.bias _ _ _ _ _)) _ _ (by omega)) (IsRows.slice 0 (IsRows.addf (IsRows.dot (IsRows.truncf _ hv3) hwhh) (IsRows.bias _ _ _ _ _)) _ _ (by omega)))) (IsRows.slice 256 (IsRows.addf (IsRows.dot (IsRows.truncf _ hv3) hwhh) (IsRows.bias _ _ _ _ _)) _ _ (by omega))))))
    (IsRows.mulf (IsRows.logistic (one_apply _) (one_apply _) (IsRows.addf (IsRows.slice 128 (IsRows.addf hv84 (IsRows.bias _ _ _ _ _)) _ _ (by omega)) (IsRows.slice 128 (IsRows.addf (IsRows.dot (IsRows.truncf _ hv3) hwhh) (IsRows.bias _ _ _ _ _)) _ _ (by omega)))) hv3))

/-! ## The output layer -/

/-- [updated source memory | source embedding] · Wout + bout. -/
theorem out_src_rows {v82 : FVec Ideal Cert.KernelIdeal.S1024x128 .f32} {v111 : Vec Ideal Cert.KernelIdeal.S256x128 .bf16} {v114 : Vec Ideal Cert.KernelIdeal.S1024x128 .f32}
    (hv82 : Rows t v82 (val_main_v80 (F := Ideal) x2 x3 x4 x5 x6 x7 x8 x9 x10 x11 x12 x13 x14 x17 x18))
    (hv114 : Rows t v114 x0)
    (hwo : ∀ (k : Fin 256) (q : Fin 128), v111 (ix2 k q) = x15 (ix2 k q)) :
    Rows t (k0_pay16 (F := Ideal) v82 v111 x16 v114)
      (val_main_v137 (F := Ideal) x0 x2 x3 x4 x5 x6 x7 x8 x9 x10 x11 x12 x13 x14 x15 x16 x17 x18) := by
  unfold k0_pay16 k0_pay15
  simp only [shapeCast_self]
  exact IsRows.addf (IsRows.dot (IsRows.truncf _ (IsRows.joined2 hv82 hv114 (by norm_num : 128 + 128 = 256) _ _)) hwo) (IsRows.bias _ _ _ _ _)

/-- [updated destination memory | destination embedding] · Wout + bout; the body computes the updated destination
    memory in the same breath, from gi and the destination's memory. -/
theorem out_dst_rows {v3 : FVec Ideal Cert.KernelIdeal.S1024x128 .f32} {v53 : FVec Ideal Cert.KernelIdeal.S128x384 .bf16}
    {v84 : FVec Ideal Cert.KernelIdeal.S1024x384 .f32} {v111 : Vec Ideal Cert.KernelIdeal.S256x128 .bf16} {v115 : Vec Ideal Cert.KernelIdeal.S1024x128 .f32}
    (hv3 : Rows t v3 (val_main_v13 (F := Ideal) x4 x18))
    (hv84 : Rows t v84 (val_main_v82 (F := Ideal) x2 x3 x4 x5 x6 x7 x8 x9 x10 x11 x17 x18))
    (hwhh : ∀ (k : Fin 128) (q : Fin 384), v53 (ix2 k q) = val_main_v86 (F := Ideal) x13 (ix2 k q))
    (hv115 : Rows t v115 x1)
    (hwo : ∀ (k : Fin 256) (q : Fin 128), v111 (ix2 k q) = x15 (ix2 k q)) :
    Rows t (k0_pay17 (F := Ideal) v3 x12 v53 x14 v84 v111 x16 v115)
      (val_main_v142 (F := Ideal) x1 x2 x3 x4 x5 x6 x7 x8 x9 x10 x11 x12 x13 x14 x15 x16 x17 x18) := by
  unfold k0_pay17 k0_pay15
  simp only [shapeCast_self]
  exact IsRows.addf (IsRows.dot (IsRows.truncf _ (IsRows.joined2
    (upd_dst_rows t x2 x3 x4 x5 x6 x7 x8 x9 x10 x11 x12 x13 x14 x17 x18 hv3 hv84 hwhh) hv115 (by norm_num : 128 + 128 = 256) _ _)) hwo) (IsRows.bias _ _ _ _ _)

end Cert.Stages

end
-- ==== Proof.BodyRows.lean ====
/-
  What the kernel's body leaves in its three output buffers at grid point t, as rows of the reference's stages.
  The body stores the source's updated memory whole into the first buffer, the destination's into the second, and the
  two output projections as the two slabs of the third, a [2, 1024, 128] buffer. Given that its six row inputs are rows
  t·1024 … t·1024 + 1023 of the gathered memories, the edge features, the timestamps and the two embeddings, and that
  its twelve whole inputs are the weight arrays (the two recurrent matrices transposed), the first buffer holds those
  rows of the reference's updated source memory, the second of its updated destination memory, and slab 0 and slab 1
  of the third those rows of the reference's source and destination outputs.
-/
import proofs.«121303_j32770600468497_2_alg».proof.Proof.Gen.KernelIdeal.Frame
import proofs.«121303_j32770600468497_2_alg».proof.Proof.Stages

set_option maxRecDepth 16384

noncomputable section

namespace Cert.BodyRows

open Idealize.ShloMosaic Idealize.ShloMosaic.ValueIdx Idealize.ShloMosaic.RowBlock
open Cert.KernelIdeal.Gen Cert.ReferenceIdeal.Read Cert.Stages

theorem hz2 : (![0, 0] : Fin 2 → Nat) = fun _ => 0 := funext fun a => by fin_cases a <;> rfl
theorem hz1 : (![0] : Fin 1 → Nat) = fun _ => 0 := funext fun a => by fin_cases a; rfl

/-- The body's eighteen inputs at grid point t against the reference's arrays: six blocks of rows, two rows of the
    time encoder, and ten weight arrays read whole (the matrices entry by entry, their float format being free). -/
structure Inputs (t : Fin 128) (a0 a1 a2 : (⟨Cert.ReferenceIdeal.S131072x128, .f32⟩ : BufTy).Contents (Elt Ideal)) (a3 : (⟨Cert.ReferenceIdeal.S131072, .f32⟩ : BufTy).Contents (Elt Ideal)) (a4 : (⟨Cert.ReferenceIdeal.S1000000x128, .f32⟩ : BufTy).Contents (Elt Ideal))
  (a5 a6 : (⟨Cert.ReferenceIdeal.S100, .f32⟩ : BufTy).Contents (Elt Ideal)) (a7 : (⟨Cert.ReferenceIdeal.S484x100, .f32⟩ : BufTy).Contents (Elt Ideal)) (a8 : (⟨Cert.ReferenceIdeal.S100, .f32⟩ : BufTy).Contents (Elt Ideal)) (a9 : (⟨Cert.ReferenceIdeal.S100x100, .f32⟩ : BufTy).Contents (Elt Ideal)) (a10 : (⟨Cert.ReferenceIdeal.S100, .f32⟩ : BufTy).Contents (Elt Ideal))
  (a11 : (⟨Cert.ReferenceIdeal.S384x100, .f32⟩ : BufTy).Contents (Elt Ideal)) (a12 : (⟨Cert.ReferenceIdeal.S384, .f32⟩ : BufTy).Contents (Elt Ideal)) (a13 : (⟨Cert.ReferenceIdeal.S384x128, .f32⟩ : BufTy).Contents (Elt Ideal)) (a14 : (⟨Cert.ReferenceIdeal.S384, .f32⟩ : BufTy).Contents (Elt Ideal))
  (a15 : (⟨Cert.ReferenceIdeal.S256x128, .f32⟩ : BufTy).Contents (Elt Ideal)) (a16 : (⟨Cert.ReferenceIdeal.S128, .f32⟩ : BufTy).Contents (Elt Ideal)) (a17 a18 : (⟨Cert.ReferenceIdeal.S131072, .i32⟩ : BufTy).Contents (Elt Ideal))
  (x0 x1 x2 : Vec Ideal Cert.KernelIdeal.S1024x128 .f32) (x3 : Vec Ideal Cert.KernelIdeal.S1024x1 .f32) (x4 x5 : Vec Ideal Cert.KernelIdeal.S1024x128 .f32)
  (x6 x7 : Vec Ideal Cert.KernelIdeal.S1x100 .f32) (x8 : Vec Ideal Cert.KernelIdeal.S484x100 .bf16) (x9 : Vec Ideal Cert.KernelIdeal.S100 .f32)
  (x10 : Vec Ideal Cert.KernelIdeal.S100x100 .bf16) (x11 : Vec Ideal Cert.KernelIdeal.S100 .f32) (x12 : Vec Ideal Cert.KernelIdeal.S100x384 .bf16)
  (x13 : Vec Ideal Cert.KernelIdeal.S384 .f32) (x14 : Vec Ideal Cert.KernelIdeal.S128x384 .bf16) (x15 : Vec Ideal Cert.KernelIdeal.S384 .f32)
  (x16 : Vec Ideal Cert.KernelIdeal.S256x128 .bf16) (x17 : Vec Ideal Cert.KernelIdeal.S128 .f32) : Prop where
  h0 : Rows t x0 (val_main_v6 (F := Ideal) a4 a17)
  h1 : Rows t x1 (val_main_v13 (F := Ideal) a4 a18)
  h2 : Rows t x2 a2
  h3 : Rows t x3 (val_main_v14 (F := Ideal) a3)
  h4 : Rows t x4 a0
  h5 : Rows t x5 a1
  h6 : x6 = val_main_v15 (F := Ideal) a5
  h7 : x7 = val_main_v19 (F := Ideal) a6
  h8 : ∀ (k : Fin 484) (q : Fin 100), x8 (ix2 k q) = a7 (ix2 k q)
  h9 : x9 = a8
  h10 : ∀ (k : Fin 100) (q : Fin 100), x10 (ix2 k q) = a9 (ix2 k q)
  h11 : x11 = a10
  h12 : ∀ (k : Fin 100) (q : Fin 384), x12 (ix2 k q) = val_main_v43 (F := Ideal) a11 (ix2 k q)
  h13 : x13 = a12
  h14 : ∀ (k : Fin 128) (q : Fin 384), x14 (ix2 k q) = val_main_v48 (F := Ideal) a13 (ix2 k q)
  h15 : x15 = a14
  h16 : ∀ (k : Fin 256) (q : Fin 128), x16 (ix2 k q) = a15 (ix2 k q)
  h17 : x17 = a16

variable {t : Fin 128} {a0 a1 a2 a3 a4 a5 a6 a7 a8 a9 a10 a11 a12 a13 a14 a15 a16 a17 a18 : _} {x0 x1 x2 x3 x4 x5 x6 x7 x8 x9 x10 x11 x12 x13 x14 x15 x16 x17 : _}

/-- The first output buffer: rows of the source's updated memory. -/
theorem out18_rows (H : Inputs t a0 a1 a2 a3 a4 a5 a6 a7 a8 a9 a10 a11 a12 a13 a14 a15 a16 a17 a18 x0 x1 x2 x3 x4 x5 x6 x7 x8 x9 x10 x11 x12 x13 x14 x15 x16 x17) :
    Rows t (out0_18 (F := Ideal) x0 x1 x2 x3 x4 x5 x6 x7 x8 x9 x10 x11 x12 x13 x14 x15 x16 x17)
      (val_main_v80 (F := Ideal) a2 a3 a4 a5 a6 a7 a8 a9 a10 a11 a12 a13 a14 a17 a18) := by
  obtain ⟨h0, h1, h2, h3, h4, h5, h6, h7, h8, h9, h10, h11, h12, h13, h14, h15, h16, h17⟩ := H
  subst h6 h7 h9 h11 h13 h15 h17
  unfold out0_18
  rw [View.canon_unit_zero hz2]
  simp only [View.ld_unit_zero (S := Cert.KernelIdeal.S1024x128) hz2, View.ld_unit_zero (S := Cert.KernelIdeal.S1024x1) hz2, View.ld_unit_zero (S := Cert.KernelIdeal.S1x100) hz2, View.ld_unit_zero (S := Cert.KernelIdeal.S484x100) hz2, View.ld_unit_zero (S := Cert.KernelIdeal.S100x100) hz2, View.ld_unit_zero (S := Cert.KernelIdeal.S100x384) hz2, View.ld_unit_zero (S := Cert.KernelIdeal.S128x384) hz2, View.ld_unit_zero (S := Cert.KernelIdeal.S256x128) hz2, View.ld_unit_zero (S := Cert.KernelIdeal.S100) hz1, View.ld_unit_zero (S := Cert.KernelIdeal.S384) hz1, View.ld_unit_zero (S := Cert.KernelIdeal.S128) hz1]
  exact upd_src_rows t a2 a3 a4 a5 a6 a7 x9 a9 x11 a11 x13 a13 x15 a17 a18
    (IsRows.castSelf _ h0) (d2s_in_rows t a2 a3 a4 a5 a6 a17 a18 h0 h1 h2 h3)
    (castSelf_entries _ h8)
    (castSelf_entries _ h10) h12 h14

/-- The second output buffer: rows of the destination's updated memory. -/
theorem out19_rows (H : Inputs t a0 a1 a2 a3 a4 a5 a6 a7 a8 a9 a10 a11 a12 a13 a14 a15 a16 a17 a18 x0 x1 x2 x3 x4 x5 x6 x7 x8 x9 x10 x11 x12 x13 x14 x15 x16 x17) :
    Rows t (out0_19 (F := Ideal) x0 x1 x2 x3 x4 x5 x6 x7 x8 x9 x10 x11 x12 x13 x14 x15 x16 x17)
      (val_main_v118 (F := Ideal) a2 a3 a4 a5 a6 a7 a8 a9 a10 a11 a12 a13 a14 a17 a18) := by
  obtain ⟨h0, h1, h2, h3, h4, h5, h6, h7, h8, h9, h10, h11, h12, h13, h14, h15, h16, h17⟩ := H
  subst h6 h7 h9 h11 h13 h15 h17
  unfold out0_19
  rw [View.canon_unit_zero hz2]
  simp only [View.ld_unit_zero (S := Cert.KernelIdeal.S1024x128) hz2, View.ld_unit_zero (S := Cert.KernelIdeal.S1024x1) hz2, View.ld_unit_zero (S := Cert.KernelIdeal.S1x100) hz2, View.ld_unit_zero (S := Cert.KernelIdeal.S484x100) hz2, View.ld_unit_zero (S := Cert.KernelIdeal.S100x100) hz2, View.ld_unit_zero (S := Cert.KernelIdeal.S100x384) hz2, View.ld_unit_zero (S := Cert.KernelIdeal.S128x384) hz2, View.ld_unit_zero (S := Cert.KernelIdeal.S256x128) hz2, View.ld_unit_zero (S := Cert.KernelIdeal.S100) hz1, View.ld_unit_zero (S := Cert.KernelIdeal.S384) hz1, View.ld_unit_zero (S := Cert.KernelIdeal.S128) hz1]
  exact upd_dst_rows t a2 a3 a4 a5 a6 a7 x9 a9 x11 a11 x13 a13 x15 a17 a18
    (IsRows.castSelf _ h1)
    (gi_dst_rows t a2 a3 a4 a5 a6 a7 x9 a9 x11 a11 a17 a18
      (s2d_msg_rows t a2 a3 a4 a5 a6 a7 x9 a9 x11 a17 a18 h0 h1 h2 h3 h8 h10) h12)
    (castSelf_entries _ h14)

/-! ## The third buffer: two slabs -/

/-- The third output buffer: slab 0 the source's output rows, slab 1 the destination's. The body stores slab 0, then
    slab 1; each store's payload is its slab, so wherever either store reaches the buffer holds the slabs. -/
theorem out20_eq (x0 x1 x2 : Vec Ideal Cert.KernelIdeal.S1024x128 .f32) (x3 : Vec Ideal Cert.KernelIdeal.S1024x1 .f32) (x4 x5 : Vec Ideal Cert.KernelIdeal.S1024x128 .f32)
  (x6 x7 : Vec Ideal Cert.KernelIdeal.S1x100 .f32) (x8 : Vec Ideal Cert.KernelIdeal.S484x100 .bf16) (x9 : Vec Ideal Cert.KernelIdeal.S100 .f32)
  (x10 : Vec Ideal Cert.KernelIdeal.S100x100 .bf16) (x11 : Vec Ideal Cert.KernelIdeal.S100 .f32) (x12 : Vec Ideal Cert.KernelIdeal.S100x384 .bf16)
  (x13 : Vec Ideal Cert.KernelIdeal.S384 .f32) (x14 : Vec Ideal Cert.KernelIdeal.S128x384 .bf16) (x15 : Vec Ideal Cert.KernelIdeal.S384 .f32)
  (x16 : Vec Ideal Cert.KernelIdeal.S256x128 .bf16) (x17 : Vec Ideal Cert.KernelIdeal.S128 .f32) :
    out0_20 (F := Ideal) x0 x1 x2 x3 x4 x5 x6 x7 x8 x9 x10 x11 x12 x13 x14 x15 x16 x17
      = slabs (k0_pay16 (F := Ideal) (k0_pay12 (F := Ideal) (k0_pay3 x0) (k0_pay6 x8) x9 (k0_pay7 x10) x11 (k0_pay9 x0 x1 x2 x3 x6 x7) x12 x13 x14 x15) x16 x17 x4)
          (k0_pay17 (F := Ideal) (k0_pay4 x1) x13 (k0_pay11 x14) x15 (k0_pay13 (k0_pay8 x0 x1 x2 x3 x6 x7 x8 x9 x10 x11) x12) x16 x17 x5) := by
  unfold out0_20
  simp only [View.ld_unit_zero (S := Cert.KernelIdeal.S1024x128) hz2, View.ld_unit_zero (S := Cert.KernelIdeal.S1024x1) hz2, View.ld_unit_zero (S := Cert.KernelIdeal.S1x100) hz2, View.ld_unit_zero (S := Cert.KernelIdeal.S484x100) hz2, View.ld_unit_zero (S := Cert.KernelIdeal.S100x100) hz2, View.ld_unit_zero (S := Cert.KernelIdeal.S100x384) hz2, View.ld_unit_zero (S := Cert.KernelIdeal.S128x384) hz2, View.ld_unit_zero (S := Cert.KernelIdeal.S256x128) hz2, View.ld_unit_zero (S := Cert.KernelIdeal.S100) hz1, View.ld_unit_zero (S := Cert.KernelIdeal.S384) hz1, View.ld_unit_zero (S := Cert.KernelIdeal.S128) hz1]
  funext y
  refine View.canon_apply_of_pieces _ _ (fun pc hpc x => ?_) y (cover0_20 _ _ y)
  simp only [List.mem_cons, List.not_mem_nil, or_false] at hpc
  rcases hpc with rfl | rfl
  · obtain ⟨u, p, q, rfl⟩ : ∃ (u : Fin 1) (p : Fin 1024) (q : Fin 128), x = ix3 u p q := ⟨x 0, x 1, x 2, eq_ix3 x⟩
    have hu : u.val = 0 := by omega
    dsimp only
    unfold k0_pay2
    rw [shapeCast_ab_1ab_apply _ _ u p q]
    refine (slabs_one _ _ _ p q ?_ ?_ ?_).symm
    · show 1 + 1 * u.val = 1; omega
    · show 0 + 1 * p.val = p.val; omega
    · show 0 + 1 * q.val = q.val; omega
  · obtain ⟨u, p, q, rfl⟩ : ∃ (u : Fin 1) (p : Fin 1024) (q : Fin 128), x = ix3 u p q := ⟨x 0, x 1, x 2, eq_ix3 x⟩
    have hu : u.val = 0 := by omega
    dsimp only
    unfold k0_pay1
    rw [shapeCast_ab_1ab_apply _ _ u p q]
    refine (slabs_zero _ _ _ p q ?_ ?_ ?_).symm
    · show 0 + 1 * u.val = 0; omega
    · show 0 + 1 * p.val = p.val; omega
    · show 0 + 1 * q.val = q.val; omega

/-- Slab 0 of the third buffer: rows of the source's output. -/
theorem out20_src_rows (H : Inputs t a0 a1 a2 a3 a4 a5 a6 a7 a8 a9 a10 a11 a12 a13 a14 a15 a16 a17 a18 x0 x1 x2 x3 x4 x5 x6 x7 x8 x9 x10 x11 x12 x13 x14 x15 x16 x17) :
    Rows t (k0_pay16 (F := Ideal) (k0_pay12 (F := Ideal) (k0_pay3 x0) (k0_pay6 x8) x9 (k0_pay7 x10) x11 (k0_pay9 x0 x1 x2 x3 x6 x7) x12 x13 x14 x15) x16 x17 x4)
      (val_main_v137 (F := Ideal) a0 a2 a3 a4 a5 a6 a7 a8 a9 a10 a11 a12 a13 a14 a15 a16 a17 a18) := by
  have H18 := out18_rows H
  obtain ⟨h0, h1, h2, h3, h4, h5, h6, h7, h8, h9, h10, h11, h12, h13, h14, h15, h16, h17⟩ := H
  subst h6 h7 h9 h11 h13 h15 h17
  unfold out0_18 at H18
  rw [View.canon_unit_zero hz2] at H18
  simp only [View.ld_unit_zero (S := Cert.KernelIdeal.S1024x128) hz2, View.ld_unit_zero (S := Cert.KernelIdeal.S1024x1) hz2, View.ld_unit_zero (S := Cert.KernelIdeal.S1x100) hz2, View.ld_unit_zero (S := Cert.KernelIdeal.S484x100) hz2, View.ld_unit_zero (S := Cert.KernelIdeal.S100x100) hz2, View.ld_unit_zero (S := Cert.KernelIdeal.S100x384) hz2, View.ld_unit_zero (S := Cert.KernelIdeal.S128x384) hz2, View.ld_unit_zero (S := Cert.KernelIdeal.S256x128) hz2, View.ld_unit_zero (S := Cert.KernelIdeal.S100) hz1, View.ld_unit_zero (S := Cert.KernelIdeal.S384) hz1, View.ld_unit_zero (S := Cert.KernelIdeal.S128) hz1] at H18
  exact out_src_rows t a0 a2 a3 a4 a5 a6 a7 x9 a9 x11 a11 x13 a13 x15 a15 x17 a17 a18 H18 h4 h16

/-- Slab 1 of the third buffer: rows of the destination's output. -/
theorem out20_dst_rows (H : Inputs t a0 a1 a2 a3 a4 a5 a6 a7 a8 a9 a10 a11 a12 a13 a14 a15 a16 a17 a18 x0 x1 x2 x3 x4 x5 x6 x7 x8 x9 x10 x11 x12 x13 x14 x15 x16 x17) :
    Rows t (k0_pay17 (F := Ideal) (k0_pay4 x1) x13 (k0_pay11 x14) x15 (k0_pay13 (k0_pay8 x0 x1 x2 x3 x6 x7 x8 x9 x10 x11) x12) x16 x17 x5)
      (val_main_v142 (F := Ideal) a1 a2 a3 a4 a5 a6 a7 a8 a9 a10 a11 a12 a13 a14 a15 a16 a17 a18) := by
  obtain ⟨h0, h1, h2, h3, h4, h5, h6, h7, h8, h9, h10, h11, h12, h13, h14, h15, h16, h17⟩ := H
  subst h6 h7 h9 h11 h13 h15 h17
  exact out_dst_rows t a1 a2 a3 a4 a5 a6 a7 x9 a9 x11 a11 x13 a13 x15 a15 x17 a17 a18
    (IsRows.castSelf _ h1)
    (gi_dst_rows t a2 a3 a4 a5 a6 a7 x9 a9 x11 a11 a17 a18
      (s2d_msg_rows t a2 a3 a4 a5 a6 a7 x9 a9 x11 a17 a18 h0 h1 h2 h3 h8 h10) h12)
    (castSelf_entries _ h14) h5 h16

end Cert.BodyRows

end
-- ==== Proof.Arrays.lean ====
/-
  From blocks to arrays. The region finds, in the arrays its windows stage, what the host operations before it left:
  the two gathered memories, the timestamps as a column, the two time-encoder vectors as rows, the five weight matrices
  converted (two of them transposed first), and the remaining arguments untouched. Window w's block at grid point t is
  rows t·1024 … t·1024 + 1023 of its array for the six row inputs and the whole array for the twelve others; the first
  two outputs' blocks are the same rows of their arrays and the third output's block is those rows of both slabs. Each
  output's blocks tile its array, so after the run the first output array is the reference's updated source memory, the
  second its updated destination memory, and the third holds the reference's source outputs in slab 0 and its
  destination outputs in slab 1.
-/
import proofs.«121303_j32770600468497_2_alg».proof.Proof.Gen.KernelIdeal.Frame
import proofs.«121303_j32770600468497_2_alg».proof.Proof.BodyRows
import Idealize.ShloMosaic.Lib.StableHlo.Run

set_option maxRecDepth 16384

noncomputable section

namespace Cert.KernelArrays

open Idealize.ShloMosaic Idealize.ShloMosaic.TcCoe Idealize.SL.Sem Idealize.ShloMosaic.StableHlo
open Idealize.ShloMosaic.ValueIdx Idealize.ShloMosaic.RowBlock
open Cert.KernelIdeal Cert.KernelIdeal.Gen Cert.ReferenceIdeal.Read Cert.Stages Cert.BodyRows
open Idealize.ShloMosaic.Pipeline (Dat Cfg Window)

variable (m : (ℓ : Loc nD τ sig) → Buf (Elt Ideal) ℓ)

/-! ## The arrays as the region finds them -/

theorem V_src_mem (c : Dev nD) : (V m c main_call0_v6 : S131072x128.Idx → EReal)
    = val_main_v6 (F := Ideal) (m ((c : Thread nD τ).loc main_arg4)) (m ((c : Thread nD τ).loc main_arg17)) := by
  show StableHlo.after hostOps0 (fun b => m (c, b)) (Proc.devRef .tc main_call0_v6) = _
  after_results
  rfl

theorem V_dst_mem (c : Dev nD) : (V m c main_call0_v13 : S131072x128.Idx → EReal)
    = val_main_v13 (F := Ideal) (m ((c : Thread nD τ).loc main_arg4)) (m ((c : Thread nD τ).loc main_arg18)) := by
  show StableHlo.after hostOps0 (fun b => m (c, b)) (Proc.devRef .tc main_call0_v13) = _
  after_results
  rfl

theorem V_ts (c : Dev nD) : (V m c main_call0_v14 : S131072x1.Idx → EReal) = val_main_v14 (F := Ideal) (m ((c : Thread nD τ).loc main_arg3)) := by
  show StableHlo.after hostOps0 (fun b => m (c, b)) (Proc.devRef .tc main_call0_v14) = _
  after_results
  rfl

theorem V_time_w (c : Dev nD) : (V m c main_call0_v15 : S1x100.Idx → EReal) = val_main_v15 (F := Ideal) (m ((c : Thread nD τ).loc main_arg5)) := by
  show StableHlo.after hostOps0 (fun b => m (c, b)) (Proc.devRef .tc main_call0_v15) = _
  after_results
  rfl

theorem V_time_b (c : Dev nD) : (V m c main_call0_v16 : S1x100.Idx → EReal) = val_main_v19 (F := Ideal) (m ((c : Thread nD τ).loc main_arg6)) := by
  show StableHlo.after hostOps0 (fun b => m (c, b)) (Proc.devRef .tc main_call0_v16) = _
  after_results
  rfl

theorem V_msg_w1 (c : Dev nD) (i : S484x100.Idx) : (V m c main_call0_v21 : S484x100.Idx → EReal) i = (m ((c : Thread nD τ).loc main_arg7)) i := by
  show StableHlo.after hostOps0 (fun b => m (c, b)) (Proc.devRef .tc main_call0_v21) i = _
  after_results
  rfl

theorem V_msg_w2 (c : Dev nD) (i : S100x100.Idx) : (V m c main_call0_v22 : S100x100.Idx → EReal) i = (m ((c : Thread nD τ).loc main_arg9)) i := by
  show StableHlo.after hostOps0 (fun b => m (c, b)) (Proc.devRef .tc main_call0_v22) i = _
  after_results
  rfl

theorem V_wih (c : Dev nD) (i : S100x384.Idx) : (V m c main_call0_v18 : S100x384.Idx → EReal) i
    = val_main_v43 (F := Ideal) (m ((c : Thread nD τ).loc main_arg11)) i := by
  show StableHlo.after hostOps0 (fun b => m (c, b)) (Proc.devRef .tc main_call0_v18) i = _
  after_results
  rfl

theorem V_whh (c : Dev nD) (i : S128x384.Idx) : (V m c main_call0_v20 : S128x384.Idx → EReal) i
    = val_main_v48 (F := Ideal) (m ((c : Thread nD τ).loc main_arg13)) i := by
  show StableHlo.after hostOps0 (fun b => m (c, b)) (Proc.devRef .tc main_call0_v20) i = _
  after_results
  rfl

theorem V_out_w (c : Dev nD) (i : S256x128.Idx) : (V m c main_call0_v23 : S256x128.Idx → EReal) i = (m ((c : Thread nD τ).loc main_arg15)) i := by
  show StableHlo.after hostOps0 (fun b => m (c, b)) (Proc.devRef .tc main_call0_v23) i = _
  after_results
  rfl

/-! ## The windows' blocks -/

/-- The index maps, decided over the 128 grid points: a row window's block index is (t, 0), the third output's (0, t, 0),
    a whole window's all zero. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_18.index t (0 : Fin 2) = t.val ∧ win0_18.index t (1 : Fin 2) = 0)
    ∧ (win0_19.index t (0 : Fin 2) = t.val ∧ win0_19.index t (1 : Fin 2) = 0)
    ∧ (win0_20.index t (0 : Fin 3) = 0 ∧ win0_20.index t (1 : Fin 3) = t.val ∧ win0_20.index t (2 : Fin 3) = 0) :=
  (by decide +kernel : ∀ t : Fin grid0.N, _)

theorem idx_whole : ∀ t : Fin cfg0.N,
    (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ win0_9.index t (0 : Fin 1) = 0
    ∧ (win0_10.index t (0 : Fin 2) = 0 ∧ win0_10.index t (1 : Fin 2) = 0)
    ∧ win0_11.index t (0 : Fin 1) = 0
    ∧ (win0_12.index t (0 : Fin 2) = 0 ∧ win0_12.index t (1 : Fin 2) = 0)
    ∧ win0_13.index t (0 : Fin 1) = 0
    ∧ (win0_14.index t (0 : Fin 2) = 0 ∧ win0_14.index t (1 : Fin 2) = 0)
    ∧ win0_15.index t (0 : Fin 1) = 0
    ∧ (win0_16.index t (0 : Fin 2) = 0 ∧ win0_16.index t (1 : Fin 2) = 0)
    ∧ win0_17.index t (0 : Fin 1) = 0 :=
  (by decide +kernel : ∀ t : Fin grid0.N, _)

/-- A grid point as a number below 128. -/
def pt (t : Fin cfg0.N) : Fin 128 := ⟨t.val, Nat.lt_of_lt_of_eq t.isLt N_0⟩

section Blocks

variable (c : Dev nD) (t : Fin cfg0.N)

/-! ### The six row inputs -/

theorem blk0_rows : Rows (pt t) (iblk m c 0 t) (val_main_v6 (F := Ideal) (m ((c : Thread nD τ).loc main_arg4)) (m ((c : Thread nD τ).loc main_arg17))) := by
  intro p q
  rw [← V_src_mem m c]
  show V m c main_call0_v6 (((cfg0.win 0).blk t).view.emb (ix2 p q)) = V m c main_call0_v6 (ix2 (row (pt t).val (hrow (pt t)) p) q)
  refine congrArg _ (funext fun a => Fin.ext ?_)
  obtain ⟨⟨e0, e1⟩, -, -, -, -, -, -, -, -⟩ := idx_facts t
  match a with
  | ⟨0, _⟩ => show win0_0.index t (0 : Fin 2) * 1024 + 1 * p.val = (pt t).val * 1024 + p.val; rw [e0]; show t.val * 1024 + 1 * p.val = t.val * 1024 + p.val; omega
  | ⟨1, _⟩ => show win0_0.index t (1 : Fin 2) * 128 + 1 * q.val = q.val; rw [e1]; omega

theorem blk1_rows : Rows (pt t) (iblk m c 1 t) (val_main_v13 (F := Ideal) (m ((c : Thread nD τ).loc main_arg4)) (m ((c : Thread nD τ).loc main_arg18))) := by
  intro p q
  rw [← V_dst_mem m c]
  show V m c main_call0_v13 (((cfg0.win 1).blk t).view.emb (ix2 p q)) = V m c main_call0_v13 (ix2 (row (pt t).val (hrow (pt t)) p) q)
  refine congrArg _ (funext fun a => Fin.ext ?_)
  obtain ⟨-, ⟨e0, e1⟩, -, -, -, -, -, -, -⟩ := idx_facts t
  match a with
  | ⟨0, _⟩ => show win0_1.index t (0 : Fin 2) * 1024 + 1 * p.val = (pt t).val * 1024 + p.val; rw [e0]; show t.val * 1024 + 1 * p.val = t.val * 1024 + p.val; omega
  | ⟨1, _⟩ => show win0_1.index t (1 : Fin 2) * 128 + 1 * q.val = q.val; rw [e1]; omega

theorem blk2_rows : Rows (pt t) (iblk m c 2 t) (m ((c : Thread nD τ).loc main_arg2)) := by
  intro p q
  rw [← V_main_arg2 m c]
  show V m c main_arg2 (((cfg0.win 2).blk t).view.emb (ix2 p q)) = V m c main_arg2 (ix2 (row (pt t).val (hrow (pt t)) p) q)
  refine congrArg _ (funext fun a => Fin.ext ?_)
  obtain ⟨-, -, ⟨e0, e1⟩, -, -, -, -, -, -⟩ := idx_facts t
  match a with
  | ⟨0, _⟩ => show win0_2.index t (0 : Fin 2) * 1024 + 1 * p.val = (pt t).val * 1024 + p.val; rw [e0]; show t.val * 1024 + 1 * p.val = t.val * 1024 + p.val; omega
  | ⟨1, _⟩ => show win0_2.index t (1 : Fin 2) * 128 + 1 * q.val = q.val; rw [e1]; omega

theorem blk3_rows : Rows (pt t) (iblk m c 3 t) (val_main_v14 (F := Ideal) (m ((c : Thread nD τ).loc main_arg3))) := by
  intro p q
  rw [← V_ts m c]
  show V m c main_call0_v14 (((cfg0.win 3).blk t).view.emb (ix2 p q)) = V m c main_call0_v14 (ix2 (row (pt t).val (hrow (pt t)) p) q)
  refine congrArg _ (funext fun a => Fin.ext ?_)
  obtain ⟨-, -, -, ⟨e0, e1⟩, -, -, -, -, -⟩ := idx_facts t
  match a with
  | ⟨0, _⟩ => show win0_3.index t (0 : Fin 2) * 1024 + 1 * p.val = (pt t).val * 1024 + p.val; rw [e0]; show t.val * 1024 + 1 * p.val = t.val * 1024 + p.val; omega
  | ⟨1, _⟩ => show win0_3.index t (1 : Fin 2) * 1 + 1 * q.val = q.val; rw [e1]; omega

theorem blk4_rows : Rows (pt t) (iblk m c 4 t) (m ((c : Thread nD τ).loc main_arg0)) := by
  intro p q
  rw [← V_main_arg0 m c]
  show V m c main_arg0 (((cfg0.win 4).blk t).view.emb (ix2 p q)) = V m c main_arg0 (ix2 (row (pt t).val (hrow (pt t)) p) q)
  refine congrArg _ (funext fun a => Fin.ext ?_)
  obtain ⟨-, -, -, -, ⟨e0, e1⟩, -, -, -, -⟩ := idx_facts t
  match a with
  | ⟨0, _⟩ => show win0_4.index t (0 : Fin 2) * 1024 + 1 * p.val = (pt t).val * 1024 + p.val; rw [e0]; show t.val * 1024 + 1 * p.val = t.val * 1024 + p.val; omega
  | ⟨1, _⟩ => show win0_4.index t (1 : Fin 2) * 128 + 1 * q.val = q.val; rw [e1]; omega

theorem blk5_rows : Rows (pt t) (iblk m c 5 t) (m ((c : Thread nD τ).loc main_arg1)) := by
  intro p q
  rw [← V_main_arg1 m c]
  show V m c main_arg1 (((cfg0.win 5).blk t).view.emb (ix2 p q)) = V m c main_arg1 (ix2 (row (pt t).val (hrow (pt t)) p) q)
  refine congrArg _ (funext fun a => Fin.ext ?_)
  obtain ⟨-, -, -, -, -, ⟨e0, e1⟩, -, -, -⟩ := idx_facts t
  match a with
  | ⟨0, _⟩ => show win0_5.index t (0 : Fin 2) * 1024 + 1 * p.val = (pt t).val * 1024 + p.val; rw [e0]; show t.val * 1024 + 1 * p.val = t.val * 1024 + p.val; omega
  | ⟨1, _⟩ => show win0_5.index t (1 : Fin 2) * 128 + 1 * q.val = q.val; rw [e1]; omega

/-! ### The twelve whole inputs -/

theorem blk6_eq : iblk m c 6 t = val_main_v15 (F := Ideal) (m ((c : Thread nD τ).loc main_arg5)) := by
  funext y
  rw [← V_time_w m c]
  show V m c main_call0_v15 (((cfg0.win 6).blk t).view.emb y) = V m c main_call0_v15 y
  refine congrArg _ (funext fun a => Fin.ext ?_)
  obtain ⟨⟨e0, e1⟩, -, -, -, -, -, -, -, -, -, -, -⟩ := idx_whole t
  match a with
  | ⟨0, _⟩ => show win0_6.index t (0 : Fin 2) * 1 + 1 * (y 0).val = (y 0).val; rw [e0]; omega
  | ⟨1, _⟩ => show win0_6.index t (1 : Fin 2) * 100 + 1 * (y 1).val = (y 1).val; rw [e1]; omega

theorem blk7_eq : iblk m c 7 t = val_main_v19 (F := Ideal) (m ((c : Thread nD τ).loc main_arg6)) := by
  funext y
  rw [← V_time_b m c]
  show V m c main_call0_v16 (((cfg0.win 7).blk t).view.emb y) = V m c main_call0_v16 y
  refine congrArg _ (funext fun a => Fin.ext ?_)
  obtain ⟨-, ⟨e0, e1⟩, -, -, -, -, -, -, -, -, -, -⟩ := idx_whole t
  match a with
  | ⟨0, _⟩ => show win0_7.index t (0 : Fin 2) * 1 + 1 * (y 0).val = (y 0).val; rw [e0]; omega
  | ⟨1, _⟩ => show win0_7.index t (1 : Fin 2) * 100 + 1 * (y 1).val = (y 1).val; rw [e1]; omega

theorem blk8_at (y : S484x100.Idx) : iblk m c 8 t y = (m ((c : Thread nD τ).loc main_arg7)) y := by
  rw [← V_msg_w1 m c y]
  show V m c main_call0_v21 (((cfg0.win 8).blk t).view.emb y) = V m c main_call0_v21 y
  refine congrArg _ (funext fun a => Fin.ext ?_)
  obtain ⟨-, -, ⟨e0, e1⟩, -, -, -, -, -, -, -, -, -⟩ := idx_whole t
  match a with
  | ⟨0, _⟩ => show win0_8.index t (0 : Fin 2) * 484 + 1 * (y 0).val = (y 0).val; rw [e0]; omega
  | ⟨1, _⟩ => show win0_8.index t (1 : Fin 2) * 100 + 1 * (y 1).val = (y 1).val; rw [e1]; omega

theorem blk9_eq : iblk m c 9 t = (m ((c : Thread nD τ).loc main_arg8)) := by
  funext y
  rw [← V_main_arg8 m c]
  show V m c main_arg8 (((cfg0.win 9).blk t).view.emb y) = V m c main_arg8 y
  refine congrArg _ (funext fun a => Fin.ext ?_)
  obtain ⟨-, -, -, e0, -, -, -, -, -, -, -, -⟩ := idx_whole t
  match a with
  | ⟨0, _⟩ => show win0_9.index t (0 : Fin 1) * 100 + 1 * (y 0).val = (y 0).val; rw [e0]; omega

theorem blk10_at (y : S100x100.Idx) : iblk m c 10 t y = (m ((c : Thread nD τ).loc main_arg9)) y := by
  rw [← V_msg_w2 m c y]
  show V m c main_call0_v22 (((cfg0.win 10).blk t).view.emb y) = V m c main_call0_v22 y
  refine congrArg _ (funext fun a => Fin.ext ?_)
  obtain ⟨-, -, -, -, ⟨e0, e1⟩, -, -, -, -, -, -, -⟩ := idx_whole t
  match a with
  | ⟨0, _⟩ => show win0_10.index t (0 : Fin 2) * 100 + 1 * (y 0).val = (y 0).val; rw [e0]; omega
  | ⟨1, _⟩ => show win0_10.index t (1 : Fin 2) * 100 + 1 * (y 1).val = (y 1).val; rw [e1]; omega

theorem blk11_eq : iblk m c 11 t = (m ((c : Thread nD τ).loc main_arg10)) := by
  funext y
  rw [← V_main_arg10 m c]
  show V m c main_arg10 (((cfg0.win 11).blk t).view.emb y) = V m c main_arg10 y
  refine congrArg _ (funext fun a => Fin.ext ?_)
  obtain ⟨-, -, -, -, -, e0, -, -, -, -, -, -⟩ := idx_whole t
  match a with
  | ⟨0, _⟩ => show win0_11.index t (0 : Fin 1) * 100 + 1 * (y 0).val = (y 0).val; rw [e0]; omega

theorem blk12_at (y : S100x384.Idx) : iblk m c 12 t y = val_main_v43 (F := Ideal) (m ((c : Thread nD τ).loc main_arg11)) y := by
  rw [← V_wih m c y]
  show V m c main_call0_v18 (((cfg0.win 12).blk t).view.emb y) = V m c main_call0_v18 y
  refine congrArg _ (funext fun a => Fin.ext ?_)
  obtain ⟨-, -, -, -, -, -, ⟨e0, e1⟩, -, -, -, -, -⟩ := idx_whole t
  match a with
  | ⟨0, _⟩ => show win0_12.index t (0 : Fin 2) * 100 + 1 * (y 0).val = (y 0).val; rw [e0]; omega
  | ⟨1, _⟩ => show win0_12.index t (1 : Fin 2) * 384 + 1 * (y 1).val = (y 1).val; rw [e1]; omega

theorem blk13_eq : iblk m c 13 t = (m ((c : Thread nD τ).loc main_arg12)) := by
  funext y
  rw [← V_main_arg12 m c]
  show V m c main_arg12 (((cfg0.win 13).blk t).view.emb y) = V m c main_arg12 y
  refine congrArg _ (funext fun a => Fin.ext ?_)
  obtain ⟨-, -, -, -, -, -, -, e0, -, -, -, -⟩ := idx_whole t
  match a with
  | ⟨0, _⟩ => show win0_13.index t (0 : Fin 1) * 384 + 1 * (y 0).val = (y 0).val; rw [e0]; omega

theorem blk14_at (y : S128x384.Idx) : iblk m c 14 t y = val_main_v48 (F := Ideal) (m ((c : Thread nD τ).loc main_arg13)) y := by
  rw [← V_whh m c y]
  show V m c main_call0_v20 (((cfg0.win 14).blk t).view.emb y) = V m c main_call0_v20 y
  refine congrArg _ (funext fun a => Fin.ext ?_)
  obtain ⟨-, -, -, -, -, -, -, -, ⟨e0, e1⟩, -, -, -⟩ := idx_whole t
  match a with
  | ⟨0, _⟩ => show win0_14.index t (0 : Fin 2) * 128 + 1 * (y 0).val = (y 0).val; rw [e0]; omega
  | ⟨1, _⟩ => show win0_14.index t (1 : Fin 2) * 384 + 1 * (y 1).val = (y 1).val; rw [e1]; omega

theorem blk15_eq : iblk m c 15 t = (m ((c : Thread nD τ).loc main_arg14)) := by
  funext y
  rw [← V_main_arg14 m c]
  show V m c main_arg14 (((cfg0.win 15).blk t).view.emb y) = V m c main_arg14 y
  refine congrArg _ (funext fun a => Fin.ext ?_)
  obtain ⟨-, -, -, -, -, -, -, -, -, e0, -, -⟩ := idx_whole t
  match a with
  | ⟨0, _⟩ => show win0_15.index t (0 : Fin 1) * 384 + 1 * (y 0).val = (y 0).val; rw [e0]; omega

theorem blk16_at (y : S256x128.Idx) : iblk m c 16 t y = (m ((c : Thread nD τ).loc main_arg15)) y := by
  rw [← V_out_w m c y]
  show V m c main_call0_v23 (((cfg0.win 16).blk t).view.emb y) = V m c main_call0_v23 y
  refine congrArg _ (funext fun a => Fin.ext ?_)
  obtain ⟨-, -, -, -, -, -, -, -, -, -, ⟨e0, e1⟩, -⟩ := idx_whole t
  match a with
  | ⟨0, _⟩ => show win0_16.index t (0 : Fin 2) * 256 + 1 * (y 0).val = (y 0).val; rw [e0]; omega
  | ⟨1, _⟩ => show win0_16.index t (1 : Fin 2) * 128 + 1 * (y 1).val = (y 1).val; rw [e1]; omega

theorem blk17_eq : iblk m c 17 t = (m ((c : Thread nD τ).loc main_arg16)) := by
  funext y
  rw [← V_main_arg16 m c]
  show V m c main_arg16 (((cfg0.win 17).blk t).view.emb y) = V m c main_arg16 y
  refine congrArg _ (funext fun a => Fin.ext ?_)
  obtain ⟨-, -, -, -, -, -, -, -, -, -, -, e0⟩ := idx_whole t
  match a with
  | ⟨0, _⟩ => show win0_17.index t (0 : Fin 1) * 128 + 1 * (y 0).val = (y 0).val; rw [e0]; omega

/-- The body's inputs at grid point t are what the stage lemmas ask. -/
theorem inputs : Inputs (pt t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) where
  h0 := blk0_rows m c t
  h1 := blk1_rows m c t
  h2 := blk2_rows m c t
  h3 := blk3_rows m c t
  h4 := blk4_rows m c t
  h5 := blk5_rows m c t
  h6 := blk6_eq m c t
  h7 := blk7_eq m c t
  h8 := fun k q => blk8_at m c t (ix2 k q)
  h9 := blk9_eq m c t
  h10 := fun k q => blk10_at m c t (ix2 k q)
  h11 := blk11_eq m c t
  h12 := fun k q => blk12_at m c t (ix2 k q)
  h13 := blk13_eq m c t
  h14 := fun k q => blk14_at m c t (ix2 k q)
  h15 := blk15_eq m c t
  h16 := fun k q => blk16_at m c t (ix2 k q)
  h17 := blk17_eq m c t

end Blocks

/-! ## What each grid point writes back, and the arrays after the run -/

/-- An index of output 18's array is in point t's block iff each coordinate is in the block's range. -/
theorem mem_blk18 (t : Fin cfg0.N) (i : S131072x128.Idx) :
    i ∈ ((cfg0.win 18).blk t).view.set ↔ ∀ a : Fin 2, win0_18.index t a * S1024x128.size a ≤ (i a).val ∧ (i a).val < win0_18.index t a * S1024x128.size a + S1024x128.size a := by
  show i ∈ ((View.whole main_call0_v24_0).slice (win0_18.rect t)).set ↔ _
  rw [View.set_slice_whole, Rect.mem_set_unit]
  exact Iff.rfl

/-- What point t writes back to output 18's array is block t of the reference's stage. -/
theorem flushed18_eq (c : Dev nD) (t : Fin cfg0.N) :
    (dats m 0 c).flushed 18 t = ((cfg0.win 18).blk t).view.read (Elt Ideal) (val_main_v80 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18))) := by
  show (cfg0.win 18).cut (grid0.coords t) ((dats m 0 c).after 18 t) = _
  rw [after0_18]
  funext y
  obtain ⟨p, q, rfl⟩ : ∃ (p : Fin 1024) (q : Fin 128), y = ix2 p q := ⟨y 0, y 1, eq_ix2 y⟩
  show out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix2 p q) = _
  refine (out18_rows (inputs m c t) p q).trans ?_
  show val_main_v80 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18)) (ix2 (row (pt t).val (hrow (pt t)) p) q) = val_main_v80 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18)) (((cfg0.win 18).blk t).view.emb (ix2 p q))
  refine congrArg _ (funext fun a => Fin.ext ?_)
  obtain ⟨-, -, -, -, -, -, ⟨e0, e1⟩, -, -⟩ := idx_facts t
  match a with
  | ⟨0, _⟩ => show (pt t).val * 1024 + p.val = win0_18.index t (0 : Fin 2) * 1024 + 1 * p.val; rw [e0]; show t.val * 1024 + p.val = t.val * 1024 + 1 * p.val; omega
  | ⟨1, _⟩ => show q.val = win0_18.index t (1 : Fin 2) * 128 + 1 * q.val; rw [e1]; omega

/-- Output 18's blocks tile its array: row r is in block r / 1024. -/
theorem cover18 (i : S131072x128.Idx) : ∃ t : Fin cfg0.N, (cfg0.win 18).flush t = true ∧ i ∈ ((cfg0.win 18).blk t).view.set := by
  have hi0 : (i 0).val < 131072 := (i 0).isLt
  have hi1 : (i 1).val < 128 := (i 1).isLt
  let t : Fin cfg0.N := ⟨(i 0).val / 1024, Nat.lt_of_lt_of_eq (by omega : (i 0).val / 1024 < 128) N_0.symm⟩
  refine ⟨t, flush0_18 t, ?_⟩
  rw [mem_blk18]
  obtain ⟨-, -, -, -, -, -, ⟨e0, e1⟩, -, -⟩ := idx_facts t
  have ht : t.val = (i 0).val / 1024 := rfl
  intro a
  match a with
  | ⟨0, _⟩ => show win0_18.index t (0 : Fin 2) * 1024 ≤ (i 0).val ∧ (i 0).val < win0_18.index t (0 : Fin 2) * 1024 + 1024; rw [e0]; omega
  | ⟨1, _⟩ => show win0_18.index t (1 : Fin 2) * 128 ≤ (i 1).val ∧ (i 1).val < win0_18.index t (1 : Fin 2) * 128 + 128; rw [e1]; omega

/-- After the run output 18's array is the reference's stage. -/
theorem final18 (c : Dev nD) : (dats m 0 c).arrAt 18 cfg0.N = val_main_v80 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18)) :=
  (dats m 0 c).arrAt_eq_of_cover 18 _ (fun t _ => flushed18_eq m c t) (cover18)

/-- An index of output 19's array is in point t's block iff each coordinate is in the block's range. -/
theorem mem_blk19 (t : Fin cfg0.N) (i : S131072x128.Idx) :
    i ∈ ((cfg0.win 19).blk t).view.set ↔ ∀ a : Fin 2, win0_19.index t a * S1024x128.size a ≤ (i a).val ∧ (i a).val < win0_19.index t a * S1024x128.size a + S1024x128.size a := by
  show i ∈ ((View.whole main_call0_v24_1).slice (win0_19.rect t)).set ↔ _
  rw [View.set_slice_whole, Rect.mem_set_unit]
  exact Iff.rfl

/-- What point t writes back to output 19's array is block t of the reference's stage. -/
theorem flushed19_eq (c : Dev nD) (t : Fin cfg0.N) :
    (dats m 0 c).flushed 19 t = ((cfg0.win 19).blk t).view.read (Elt Ideal) (val_main_v118 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18))) := by
  show (cfg0.win 19).cut (grid0.coords t) ((dats m 0 c).after 19 t) = _
  rw [after0_19]
  funext y
  obtain ⟨p, q, rfl⟩ : ∃ (p : Fin 1024) (q : Fin 128), y = ix2 p q := ⟨y 0, y 1, eq_ix2 y⟩
  show out0_19 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix2 p q) = _
  refine (out19_rows (inputs m c t) p q).trans ?_
  show val_main_v118 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18)) (ix2 (row (pt t).val (hrow (pt t)) p) q) = val_main_v118 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18)) (((cfg0.win 19).blk t).view.emb (ix2 p q))
  refine congrArg _ (funext fun a => Fin.ext ?_)
  obtain ⟨-, -, -, -, -, -, -, ⟨e0, e1⟩, -⟩ := idx_facts t
  match a with
  | ⟨0, _⟩ => show (pt t).val * 1024 + p.val = win0_19.index t (0 : Fin 2) * 1024 + 1 * p.val; rw [e0]; show t.val * 1024 + p.val = t.val * 1024 + 1 * p.val; omega
  | ⟨1, _⟩ => show q.val = win0_19.index t (1 : Fin 2) * 128 + 1 * q.val; rw [e1]; omega

/-- Output 19's blocks tile its array: row r is in block r / 1024. -/
theorem cover19 (i : S131072x128.Idx) : ∃ t : Fin cfg0.N, (cfg0.win 19).flush t = true ∧ i ∈ ((cfg0.win 19).blk t).view.set := by
  have hi0 : (i 0).val < 131072 := (i 0).isLt
  have hi1 : (i 1).val < 128 := (i 1).isLt
  let t : Fin cfg0.N := ⟨(i 0).val / 1024, Nat.lt_of_lt_of_eq (by omega : (i 0).val / 1024 < 128) N_0.symm⟩
  refine ⟨t, flush0_19 t, ?_⟩
  rw [mem_blk19]
  obtain ⟨-, -, -, -, -, -, -, ⟨e0, e1⟩, -⟩ := idx_facts t
  have ht : t.val = (i 0).val / 1024 := rfl
  intro a
  match a with
  | ⟨0, _⟩ => show win0_19.index t (0 : Fin 2) * 1024 ≤ (i 0).val ∧ (i 0).val < win0_19.index t (0 : Fin 2) * 1024 + 1024; rw [e0]; omega
  | ⟨1, _⟩ => show win0_19.index t (1 : Fin 2) * 128 ≤ (i 1).val ∧ (i 1).val < win0_19.index t (1 : Fin 2) * 128 + 128; rw [e1]; omega

/-- After the run output 19's array is the reference's stage. -/
theorem final19 (c : Dev nD) : (dats m 0 c).arrAt 19 cfg0.N = val_main_v118 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18)) :=
  (dats m 0 c).arrAt_eq_of_cover 19 _ (fun t _ => flushed19_eq m c t) (cover19)

/-- An index of the third output's array is in point t's block iff each coordinate is in the block's range. -/
theorem mem_blk20 (t : Fin cfg0.N) (i : S2x131072x128.Idx) :
    i ∈ ((cfg0.win 20).blk t).view.set ↔ ∀ a : Fin 3, win0_20.index t a * S2x1024x128.size a ≤ (i a).val ∧ (i a).val < win0_20.index t a * S2x1024x128.size a + S2x1024x128.size a := by
  show i ∈ ((View.whole main_call0_v24_2).slice (win0_20.rect t)).set ↔ _
  rw [View.set_slice_whole, Rect.mem_set_unit]
  exact Iff.rfl

/-- What point t writes back to the third output's array: block t of the two slabs, the reference's source outputs and
    its destination outputs. -/
theorem flushed20_eq (c : Dev nD) (t : Fin cfg0.N) :
    (dats m 0 c).flushed 20 t = ((cfg0.win 20).blk t).view.read (Elt Ideal)
      (slabs (val_main_v137 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))) (val_main_v142 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)))) := by
  show (cfg0.win 20).cut (grid0.coords t) ((dats m 0 c).after 20 t) = _
  rw [after0_20]
  funext y
  obtain ⟨s, p, q, rfl⟩ : ∃ (s : Fin 2) (p : Fin 1024) (q : Fin 128), y = ix3 s p q := ⟨y 0, y 1, y 2, eq_ix3 y⟩
  show out0_20 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix3 s p q) = _
  refine (congrFun (out20_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) (ix3 s p q)).trans ?_
  show _ = slabs (val_main_v137 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))) (val_main_v142 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))) (((cfg0.win 20).blk t).view.emb (ix3 s p q))
  obtain ⟨-, -, -, -, -, -, -, -, ⟨e0, e1, e2⟩⟩ := idx_facts t
  have k0 : ∀ s : Fin 2, ((((cfg0.win 20).blk t).view.emb (ix3 s p q)) 0).val = s.val := fun s => by
    show win0_20.index t (0 : Fin 3) * 2 + 1 * s.val = s.val; rw [e0]; omega
  have k1 : ∀ s : Fin 2, ((((cfg0.win 20).blk t).view.emb (ix3 s p q)) 1).val = (row (pt t).val (hrow (pt t)) p).val := fun s => by
    show win0_20.index t (1 : Fin 3) * 1024 + 1 * p.val = (pt t).val * 1024 + p.val; rw [e1]; show t.val * 1024 + 1 * p.val = t.val * 1024 + p.val; omega
  have k2 : ∀ s : Fin 2, ((((cfg0.win 20).blk t).view.emb (ix3 s p q)) 2).val = q.val := fun s => by
    show win0_20.index t (2 : Fin 3) * 128 + 1 * q.val = q.val; rw [e2]; omega
  match s with
  | ⟨0, _⟩ =>
    rw [slabs_zero _ _ _ p q rfl rfl rfl, slabs_zero _ _ _ (row (pt t).val (hrow (pt t)) p) q (k0 _) (k1 _) (k2 _)]
    exact out20_src_rows (inputs m c t) p q
  | ⟨1, _⟩ =>
    rw [slabs_one _ _ _ p q rfl rfl rfl, slabs_one _ _ _ (row (pt t).val (hrow (pt t)) p) q (k0 _) (k1 _) (k2 _)]
    exact out20_dst_rows (inputs m c t) p q

/-- The third output's blocks tile its array: row r of either slab is in block r / 1024. -/
theorem cover20 (i : S2x131072x128.Idx) : ∃ t : Fin cfg0.N, (cfg0.win 20).flush t = true ∧ i ∈ ((cfg0.win 20).blk t).view.set := by
  have hi0 : (i 0).val < 2 := (i 0).isLt
  have hi1 : (i 1).val < 131072 := (i 1).isLt
  have hi2 : (i 2).val < 128 := (i 2).isLt
  let t : Fin cfg0.N := ⟨(i 1).val / 1024, Nat.lt_of_lt_of_eq (by omega : (i 1).val / 1024 < 128) N_0.symm⟩
  refine ⟨t, flush0_20 t, ?_⟩
  rw [mem_blk20]
  obtain ⟨-, -, -, -, -, -, -, -, ⟨e0, e1, e2⟩⟩ := idx_facts t
  have ht : t.val = (i 1).val / 1024 := rfl
  intro a
  match a with
  | ⟨0, _⟩ => show win0_20.index t (0 : Fin 3) * 2 ≤ (i 0).val ∧ (i 0).val < win0_20.index t (0 : Fin 3) * 2 + 2; rw [e0]; omega
  | ⟨1, _⟩ => show win0_20.index t (1 : Fin 3) * 1024 ≤ (i 1).val ∧ (i 1).val < win0_20.index t (1 : Fin 3) * 1024 + 1024; rw [e1]; omega
  | ⟨2, _⟩ => show win0_20.index t (2 : Fin 3) * 128 ≤ (i 2).val ∧ (i 2).val < win0_20.index t (2 : Fin 3) * 128 + 128; rw [e2]; omega

/-- After the run the third output's array holds the reference's source outputs in slab 0, its destination outputs in slab 1. -/
theorem final20 (c : Dev nD) : (dats m 0 c).arrAt 20 cfg0.N
    = slabs (val_main_v137 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))) (val_main_v142 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))) :=
  (dats m 0 c).arrAt_eq_of_cover 20 _ (fun t _ => flushed20_eq m c t) (cover20)

end Cert.KernelArrays

end
-- ==== Proof.KernelRun.lean ====
/-
  The kernel's run, read back. After the region the host scatters the first output array's rows into the memory table
  at the source indices, then the second output array's rows at the destination indices, and flattens the third output
  array's two slabs into one [262144, 128] array. With the three output arrays equal to the reference's updated
  memories and its two slabs of outputs, the scattered table is the reference's table (the same two scatters of the
  same rows at the same indices, in the same order), and the flattened slabs are the reference's source outputs with
  its destination outputs joined below.
-/
import proofs.«121303_j32770600468497_2_alg».proof.Proof.Arrays

set_option maxRecDepth 16384

noncomputable section

namespace Cert.KernelRun

open Idealize.ShloMosaic Idealize.ShloMosaic.TcCoe Idealize.SL.Sem Idealize.ShloMosaic.StableHlo
open Idealize.ShloMosaic.ValueIdx Idealize.ShloMosaic.RowBlock
open Cert.KernelIdeal Cert.KernelIdeal.Gen Cert.ReferenceIdeal.Read Cert.KernelArrays

variable (m : (ℓ : Loc nD τ sig) → Buf (Elt Ideal) ℓ) (ρ : Dev nD → PrngReg)

/-- What the lines after the region find in a buffer that is one of the region's arrays. -/
theorem tail_arr (c : Dev nD) (w : Fin 21) :
    Pipeline.withArrays spec0 c (V0 m c) (fun w => (dats m 0 c).arrAt w cfg0.N) (Proc.devRef .tc (Pipeline.arrRef spec0 w))
      = (dats m 0 c).arrAt w cfg0.N :=
  Pipeline.withArrays_arr spec0 launch0.win.arr_inj c (V0 m c) (fun w => (dats m 0 c).arrAt w cfg0.N) w

/-- The first result: the third output array's slabs flattened. -/
theorem tail_out (c : Dev nD) :
    Pipeline.afterTail₀ cfgs (dats m) 0 (V0 m) [hostOps1] c main_v0_0 = val_main_v143 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  unfold Pipeline.afterTail₀
  show StableHlo.after hostOps1 _ (Proc.devRef .tc main_v0_0) = _
  after_results
  rw [show Pipeline.withArrays spec0 c (V0 m c) (fun w => (dats m 0 c).arrAt w cfg0.N) (Proc.devRef .tc main_call0_v24_2)
      = (dats m 0 c).arrAt 20 cfg0.N from tail_arr m c 20, final20 m c]
  unfold val_main_v143
  exact flatten_slabs (by norm_num : (262144 : ℕ) = 131072 + 131072) _ _ _ _

/-- Contents carried to a buffer's own type and back are the contents. -/
theorem ofBuf_toBuf {T : BufTy} (x : TRef sig T) (v : T.Contents (Elt Ideal)) : x.ofBuf (x.toBuf v) = v := by
  obtain ⟨r, h, h1, h2⟩ := x
  subst h
  rfl

/-- The second result's buffer holds contents of its own type as they are. -/
theorem toBuf_mem (v : (⟨S1000000x128, .f32⟩ : BufTy).Contents (Elt Ideal)) :
    (TRef.of main_v0_1 : TRef sig ⟨S1000000x128, .f32⟩).toBuf v = v := rfl

set_option maxHeartbeats 4000000 in
/-- The second result: the memory table after the two scatters. -/
theorem tail_mem (c : Dev nD) :
    Pipeline.afterTail₀ cfgs (dats m) 0 (V0 m) [hostOps1] c main_v0_1 = val_main_v132 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18)) := by
  unfold Pipeline.afterTail₀
  show StableHlo.after hostOps1 _ (Proc.devRef .tc main_v0_1) = _
  after_results
  simp only [ofBuf_toBuf]
  rw [show Pipeline.withArrays spec0 c (V0 m c) (fun w => (dats m 0 c).arrAt w cfg0.N) (Proc.devRef .tc main_call0_v24_0)
      = (dats m 0 c).arrAt 18 cfg0.N from tail_arr m c 18, final18 m c,
    show Pipeline.withArrays spec0 c (V0 m c) (fun w => (dats m 0 c).arrAt w cfg0.N) (Proc.devRef .tc main_call0_v24_1)
      = (dats m 0 c).arrAt 19 cfg0.N from tail_arr m c 19, final19 m c,
    Pipeline.withArrays_of_ne _ c (V0 m c) _ main_arg4 (by exact (by decide : ∀ w, Pipeline.arrRef spec0 w ≠ main_arg4)),
    Pipeline.withArrays_of_ne _ c (V0 m c) _ main_arg17 (by exact (by decide : ∀ w, Pipeline.arrRef spec0 w ≠ main_arg17)),
    Pipeline.withArrays_of_ne _ c (V0 m c) _ main_arg18 (by exact (by decide : ∀ w, Pipeline.arrRef spec0 w ≠ main_arg18)),
    show V0 m c (Proc.devRef .tc main_arg4) = _ from V_main_arg4 m c,
    show V0 m c (Proc.devRef .tc main_arg17) = _ from V_main_arg17 m c,
    show V0 m c (Proc.devRef .tc main_arg18) = _ from V_main_arg18 m c]
  unfold val_main_v132 val_main_v125
  generalize val_main_v80 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18)) = U1
  generalize val_main_v118 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18)) = U2
  refine (toBuf_mem _).trans ?_
  rfl

/-- Every weakly fair execution of the kernel's program terminates with the first result at the reference's outputs,
    the second at the reference's memory table, and the arguments unchanged. -/
theorem run : θ_run defs (onTc (τ := τ) (main (F := Ideal))) ⟨m, fun _ => 0, ρ⟩ (fun r => ∀ c : Dev nD,
      r.2.mem ((c.tc : Thread nD τ).loc main_v0_0) = val_main_v143 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))
      ∧ r.2.mem ((c.tc : Thread nD τ).loc main_v0_1) = val_main_v132 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨
      ((h c).2 main_v0_0 (Pipeline.mem_restRefs_of main_v0_0 (by decide) (by decide))).trans (tail_out m c),
      ((h c).2 main_v0_1 (Pipeline.mem_restRefs_of main_v0_1 (by decide) (by decide))).trans (tail_mem m c),
      ((h c).1 4).trans (((dats m 0 c).arrAt_in 4 rfl _).trans ((A_eq m c 4).trans (V_main_arg0 m c))),
      ((h c).1 5).trans (((dats m 0 c).arrAt_in 5 rfl _).trans ((A_eq m c 5).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).1 9).trans (((dats m 0 c).arrAt_in 9 rfl _).trans ((A_eq m c 9).trans (V_main_arg8 m c))),
      ((h c).2 main_arg9 (Pipeline.mem_restRefs_of main_arg9 (by decide) (by decide))).trans (W_main_arg9 m (dats m) c),
      ((h c).1 11).trans (((dats m 0 c).arrAt_in 11 rfl _).trans ((A_eq m c 11).trans (V_main_arg10 m c))),
      ((h c).2 main_arg11 (Pipeline.mem_restRefs_of main_arg11 (by decide) (by decide))).trans (W_main_arg11 m (dats m) c),
      ((h c).1 13).trans (((dats m 0 c).arrAt_in 13 rfl _).trans ((A_eq m c 13).trans (V_main_arg12 m c))),
      ((h c).2 main_arg13 (Pipeline.mem_restRefs_of main_arg13 (by decide) (by decide))).trans (W_main_arg13 m (dats m) c),
      ((h c).1 15).trans (((dats m 0 c).arrAt_in 15 rfl _).trans ((A_eq m c 15).trans (V_main_arg14 m c))),
      ((h c).2 main_arg15 (Pipeline.mem_restRefs_of main_arg15 (by decide) (by decide))).trans (W_main_arg15 m (dats m) c),
      ((h c).1 17).trans (((dats m 0 c).arrAt_in 17 rfl _).trans ((A_eq m c 17).trans (V_main_arg16 m c))),
      ((h c).2 main_arg17 (Pipeline.mem_restRefs_of main_arg17 (by decide) (by decide))).trans (W_main_arg17 m (dats m) c),
      ((h c).2 main_arg18 (Pipeline.mem_restRefs_of main_arg18 (by decide) (by decide))).trans (W_main_arg18 m (dats m) c)⟩)
    (run_main m ρ)

end Cert.KernelRun

end
-- ==== Proof.lean ====
/-
  A temporal-graph-network layer on 131072 edges over a memory table of 1000000 rows: gather the source's and the
  destination's memory rows; encode the timestamp as cos(t·w + b); send each endpoint a message, a two-layer
  perceptron of [own memory | other memory | edge features | time encoding]; pass each message through a gated
  recurrent cell whose previous state is the endpoint's memory; write the two updated memories back into the table,
  sources first, destinations second; and project [updated memory | node embedding] to the output, sources stacked over
  destinations.
  The kernel does the gathers and the write-back on the host exactly as the reference does, and everything in between
  in one region over 128 grid points, 1024 edges each. On the extended reals its format changes are the identity, its
  matrix products into zero accumulators are the reference's, and its logistic function is the quotient
  1 / (1 + exp(−x)) the reference spells out; every operation in between works on each row by itself. So each grid
  point leaves in the three output arrays rows t·1024 … t·1024 + 1023 of the reference's updated source memory, of its
  updated destination memory, and of its two output slabs; the blocks tile the arrays; and the host's two scatters and
  its flattening of the stacked outputs then produce the reference's two results. No step needs the inputs to be
  finite, and the pass that idealizes the kernel rewrote nothing, so the preservation claim is empty.
-/
import proofs.«121303_j32770600468497_2_alg».proof.Defs
import proofs.«121303_j32770600468497_2_alg».proof.Proof.Gen.Kernel
import proofs.«121303_j32770600468497_2_alg».proof.Proof.Gen.Kernel.Skeleton
import proofs.«121303_j32770600468497_2_alg».proof.Proof.Gen.Kernel.Launch
import proofs.«121303_j32770600468497_2_alg».proof.Proof.Gen.Kernel.Points
import proofs.«121303_j32770600468497_2_alg».proof.Proof.Gen.Kernel.Frame
import proofs.«121303_j32770600468497_2_alg».proof.Proof.Gen.KernelIdeal
import proofs.«121303_j32770600468497_2_alg».proof.Proof.Gen.KernelIdeal.Skeleton
import proofs.«121303_j32770600468497_2_alg».proof.Proof.Gen.KernelIdeal.Launch
import proofs.«121303_j32770600468497_2_alg».proof.Proof.Gen.KernelIdeal.Points
import proofs.«121303_j32770600468497_2_alg».proof.Proof.Gen.KernelIdeal.Frame
import proofs.«121303_j32770600468497_2_alg».proof.Proof.Gen.ReferenceIdeal
import proofs.«121303_j32770600468497_2_alg».proof.Proof.Gen.ReferenceIdeal.Run
import proofs.«121303_j32770600468497_2_alg».proof.Proof.Gen.ReferenceIdeal.Read
import proofs.«121303_j32770600468497_2_alg».proof.Proof.Gen.Pre_finite_inputs
import proofs.«121303_j32770600468497_2_alg».proof.Proof.KernelRun
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments unchanged. -/
theorem frame_kernel : Cert.frame_Kernel :=
  fun m ρ _ => Cert.Kernel.Gen.frame m ρ

/-- So does the idealized kernel. -/
theorem frame_kernel_ideal : Cert.frame_KernelIdeal :=
  fun m ρ _ => Cert.KernelIdeal.Gen.frame m ρ

/-- And the reference: its run with the two results dropped. -/
theorem frame_reference : Cert.frame_ReferenceIdeal :=
  fun m ρ _ => (θ_run Cert.ReferenceIdeal.defs _ _).mono (fun _ h c => (h c).2.2)
    (Cert.ReferenceIdeal.Value.run (F := Ideal) m ρ)

set_option maxHeartbeats 4000000 in
/-- From memories that agree on the arguments both programs end with the same two results: the kernel's run ends at
    the reference's stages of the kernel's arguments, the reference's at the same stages of its own. -/
theorem algebraic :
    Cert.algebraic_KernelIdeal_ReferenceIdeal := by
  intro m ρ m' ρ' _ hagree
  refine ⟨fun c => Cert.ReferenceIdeal.Read.val_main_v143 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)),
    fun c => Cert.ReferenceIdeal.Read.val_main_v132 (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)),
    Cert.KernelRun.run m ρ, ?_⟩
  refine (θ_run Cert.ReferenceIdeal.defs _ _).mono (fun _ h c => ?_) (Cert.ReferenceIdeal.Value.run (F := Ideal) m' ρ')
  obtain ⟨g0, g1, g2, g3, g4, g5, g6, g7, g8, g9, g10, g11, g12, g13, g14, g15, g16, g17, g18⟩ := hagree c
  refine ⟨(h c).1.trans ?_, (h c).2.1.trans ?_, (h c).2.2⟩
  · rw [Cert.ReferenceIdeal.Read.val_main_v143_eq, g0, g1, g2, g3, g4, g5, g6, g7, g8, g9, g10, g11, g12, g13, g14, g15, g16, g17, g18]
  · rw [Cert.ReferenceIdeal.Read.val_main_v132_eq, g2, g3, g4, g5, g6, g7, g8, g9, g10, g11, g12, g13, g14, g17, g18]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
